-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x256 : Shape := ⟨2, ![64, 256]⟩
abbrev S256 : Shape := ⟨1, ![256]⟩
abbrev S32x3 : Shape := ⟨2, ![32, 3]⟩
abbrev S3 : Shape := ⟨1, ![3]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S3 .f32) (main_v48 : IVec S_ 1) (main_v49 : FVec F S32x3 .f32) (main_v50 : FVec F S32x3 .f32) : IVec S_ 1 :=
  let main_v51 : IVec S32x3 1 := cmpf .olt main_v49 main_v50
  let main_c_19 : IVec S_ 1 := constantI S_ 1 1#1
  let main_v52 : IVec S_ 1 := (fun x v => Host.reduce IntOp.andi x v reducesTo_S32x3_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg8 : FVec F S64 .f32) (main_arg9 : FVec F S64x256 .f32) (main_arg10 : FVec F S256 .f32) (main_arg11 : FVec F S32x3 .f32) (main_arg12 : FVec F S3 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x256 .f32 := Host.absf main_arg9
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S32x3 .f32 := Host.absf main_arg11
  let main_cst_18 : FVec F S_ .f32 := constant S_ .f32 0x7F800000#32
  let main_v50 : FVec F S32x3 .f32 := broadcastInDim S32x3 ![] bcast_S_S32x3 main_cst_18
  fn_part3 (F := F) main_arg12 main_v48 main_v49 main_v50

def fn_part1 {F : FTy → Type} [FloatOps F] (main_arg5 : FVec F S64x32 .f32) (main_arg6 : FVec F S32 .f32) (main_arg7 : FVec F S32x64 .f32) (main_arg8 : FVec F S64 .f32) (main_arg9 : FVec F S64x256 .f32) (main_arg10 : FVec F S256 .f32) (main_arg11 : FVec F S32x3 .f32) (main_arg12 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x256 .f32) (main_arg1 : IVec S2x800000 32) (main_arg2 : FVec F S800000 .f32) (main_arg3 : FVec F S256x64 .f32) (main_arg4 : FVec F S64 .f32) (main_arg5 : FVec F S64x32 .f32) (main_arg6 : FVec F S32 .f32) (main_arg7 : FVec F S32x64 .f32) (main_arg8 : FVec F S64 .f32) (main_arg9 : FVec F S64x256 .f32) (main_arg10 : FVec F S256 .f32) (main_arg11 : FVec F S32x3 .f32) (main_arg12 : FVec F S3 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x256 : Shape := ⟨2, ![64, 256]⟩
abbrev S256 : Shape := ⟨1, ![256]⟩
abbrev S32x3 : Shape := ⟨2, ![32, 3]⟩
abbrev S3 : Shape := ⟨1, ![3]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x256 : Shape := ⟨2, ![5000, 256]⟩
abbrev S5000x64 : Shape := ⟨2, ![5000, 64]⟩
abbrev S850000x64 : Shape := ⟨2, ![850000, 64]⟩
abbrev S1x64 : Shape := ⟨2, ![1, 64]⟩
abbrev S1x32 : Shape := ⟨2, ![1, 32]⟩
abbrev S50000x32 : Shape := ⟨2, ![50000, 32]⟩
abbrev S5000x32 : Shape := ⟨2, ![5000, 32]⟩
abbrev S850000x256 : Shape := ⟨2, ![850000, 256]⟩
abbrev S1x256 : Shape := ⟨2, ![1, 256]⟩
abbrev S1x3 : Shape := ⟨2, ![1, 3]⟩
abbrev S50000x3 : Shape := ⟨2, ![50000, 3]⟩
abbrev S5000x3 : Shape := ⟨2, ![5000, 3]⟩

abbrev nBuf : Space → Nat
  | .hbm => 96
  | .vmem => 38
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S64x256, .f32⟩
  | .hbm, ⟨10, _⟩ => ⟨S256, .f32⟩
  | .hbm, ⟨11, _⟩ => ⟨S32x3, .f32⟩
  | .hbm, ⟨12, _⟩ => ⟨S3, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000, .i32⟩
  | .hbm, ⟨18, _⟩ => ⟨S850000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S850000x1, .f32⟩
  | .hbm, ⟨54, _⟩ => ⟨S50000x64, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x64, .f32⟩
  | .hbm, ⟨64, _⟩ => ⟨S850000x64, .f32⟩
  | .hbm, ⟨65, _⟩ => ⟨S850000x64, .f32⟩
  | .hbm, ⟨66, _⟩ => ⟨S_, .f32⟩
  | .hbm, ⟨67, _⟩ => ⟨S50000x64, .f32⟩
  | .hbm, ⟨68, _⟩ => ⟨S850000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S1x32, .f32⟩
  | .hbm, ⟨73, _⟩ => ⟨S50000x32, .f32⟩
  | .hbm, ⟨74, _⟩ => ⟨S1x64, .f32⟩
  | .hbm, ⟨75, _⟩ => ⟨S50000x64, .f32⟩
  | .hbm, ⟨76, _⟩ => ⟨S50000x256, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x256, .f32⟩
  | .hbm, ⟨86, _⟩ => ⟨S850000x256, .f32⟩
  | .hbm, ⟨87, _⟩ => ⟨S850000x256, .f32⟩
  | .hbm, ⟨88, _⟩ => ⟨S_, .f32⟩
  | .hbm, ⟨89, _⟩ => ⟨S50000x256, .f32⟩
  | .hbm, ⟨90, _⟩ => ⟨S850000x1, .i32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S1x3, .f32⟩
  | .hbm, ⟨95, _⟩ => ⟨S50000x3, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S5000x256, .f32⟩
  | .local _ .vmem, ⟨29, _⟩ => ⟨S1x256, .f32⟩
  | .local _ .vmem, ⟨30, _⟩ => ⟨S5000x256, .f32⟩
  | .local _ .vmem, ⟨31, _⟩ => ⟨S5000x256, .f32⟩
  | .local _ .vmem, ⟨32, _⟩ => ⟨S5000x32, .f32⟩
  | .local _ .vmem, ⟨33, _⟩ => ⟨S5000x32, .f32⟩
  | .local _ .vmem, ⟨34, _⟩ => ⟨S32x3, .f32⟩
  | .local _ .vmem, ⟨35, _⟩ => ⟨S1x3, .f32⟩
  | .local _ .vmem, ⟨36, _⟩ => ⟨S5000x3, .f32⟩
  | .local _ .vmem, ⟨37, _⟩ => ⟨S5000x3, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x3 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x3 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x3 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S64x256_S64x256_0_0 : ∀ a, (![0, 0] : Fin 2 → Nat) a + S64x256.size a ≤ S64x256.size a
  h_S64x256 : 0 < S64x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S3_S1x3 : S3.ShapeCasts S1x3
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  dot_S5000x32_S32x64_S5000x64_1_0_0_1_n_n_wf : DotDims.WF S5000x32 S32x64 S5000x64 [1] [0] [0] [1] [] []
  dot_S5000x64_S64x256_S5000x256_1_0_0_1_n_n_wf : DotDims.WF S5000x64 S64x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x32_S32x3_S5000x3_1_0_0_1_n_n_wf : DotDims.WF S5000x32 S32x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .f32 = 32 ∨ (Rect.block (s := S64x256) S64x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S50000x256.size a
  hwx5_2 : ∀ i : grid5.Coords, EltTy.bits .f32 = 32 ∨ (Rect.block (s := S50000x256) S5000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x3.size a ≤ S32x3.size a
  hwx6_1 : ∀ i : grid6.Coords, EltTy.bits .f32 = 32 ∨ (Rect.block (s := S32x3) S32x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x3.size a ≤ S1x3.size a
  hwx6_2 : ∀ i : grid6.Coords, EltTy.bits .f32 = 32 ∨ (Rect.block (s := S1x3) S1x3.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x3.size a ≤ S50000x3.size a
  hwx6_3 : ∀ i : grid6.Coords, EltTy.bits .f32 = 32 ∨ (Rect.block (s := S50000x3) S5000x3.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x32_S32x3_S5000x3_1_0_0_1_n_n : DotDims S5000x32 S32x3 S5000x3 where
  lhsContracting := [1]
  rhsContracting := [0]
  lhsNonContracting := [0]
  rhsNonContracting := [1]
  lhsBatch := []
  rhsBatch := []
  wf := dot_S5000x32_S32x3_S5000x3_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v49) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S32x3.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S1x3.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v66) S5000x3.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x256 : Shape := ⟨2, ![64, 256]⟩
abbrev S256 : Shape := ⟨1, ![256]⟩
abbrev S32x3 : Shape := ⟨2, ![32, 3]⟩
abbrev S3 : Shape := ⟨1, ![3]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S1x32 : Shape := ⟨2, ![1, 32]⟩
abbrev S850000x256 : Shape := ⟨2, ![850000, 256]⟩
abbrev S1x256 : Shape := ⟨2, ![1, 256]⟩
abbrev S50000x3 : Shape := ⟨2, ![50000, 3]⟩
abbrev S1x3 : Shape := ⟨2, ![1, 3]⟩

abbrev nBuf : Space → Nat
  | .hbm => 147
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S256x64, .f32⟩
  | 4 => ⟨S64, .f32⟩
  | 5 => ⟨S64x32, .f32⟩
  | 6 => ⟨S32, .f32⟩
  | 7 => ⟨S32x64, .f32⟩
  | 8 => ⟨S64, .f32⟩
  | 9 => ⟨S64x256, .f32⟩
  | 10 => ⟨S256, .f32⟩
  | 11 => ⟨S32x3, .f32⟩
  | 12 => ⟨S3, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x64, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .f32⟩
  | 63 => ⟨S850000x1, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x32, .f32⟩
  | 77 => ⟨S1x32, .f32⟩
  | 78 => ⟨S50000x32, .f32⟩
  | 79 => ⟨S50000x32, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000, .i32⟩
  | 88 => ⟨S850000, .i32⟩
  | 89 => ⟨S850000, .i32⟩
  | 90 => ⟨S_, .f32⟩
  | 91 => ⟨S850000, .f32⟩
  | 92 => ⟨S_, .f32⟩
  | 93 => ⟨S50000, .f32⟩
  | 94 => ⟨S850000x1, .i32⟩
  | 95 => ⟨S50000, .f32⟩
  | 96 => ⟨S_, .f32⟩
  | 97 => ⟨S50000, .f32⟩
  | 98 => ⟨S50000, .i1⟩
  | 99 => ⟨S50000, .f32⟩
  | 100 => ⟨S_, .f32⟩
  | 101 => ⟨S_, .f32⟩
  | 102 => ⟨S50000, .f32⟩
  | 103 => ⟨S50000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000, .f32⟩
  | 122 => ⟨S850000, .f32⟩
  | 123 => ⟨S50000x256, .f32⟩
  | 124 => ⟨S_, .i32⟩
  | 125 => ⟨S850000, .i32⟩
  | 126 => ⟨S850000, .i1⟩
  | 127 => ⟨S_, .i32⟩
  | _ => ⟨S50000x256, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x256, .f32⟩
  | 5 => ⟨S850000x1, .f32⟩
  | 6 => ⟨S850000x256, .f32⟩
  | 7 => ⟨S850000x256, .f32⟩
  | 8 => ⟨S_, .f32⟩
  | 9 => ⟨S50000x256, .f32⟩
  | 10 => ⟨S850000x1, .i32⟩
  | 11 => ⟨S50000x256, .f32⟩
  | 12 => ⟨S1x256, .f32⟩
  | 13 => ⟨S50000x256, .f32⟩
  | 14 => ⟨S50000x256, .f32⟩
  | 15 => ⟨S50000x3, .f32⟩
  | 16 => ⟨S1x3, .f32⟩
  | 17 => ⟨S50000x3, .f32⟩
  | 18 => ⟨S50000x3, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call2_cst : Ref sig .tc := ⟨.hbm, 84, rfl⟩
abbrev main_call2_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_call3_v0 : Ref sig .tc := ⟨.hbm, 101, rfl⟩
abbrev main_call3_v1 : Ref sig .tc := ⟨.hbm, 102, rfl⟩
abbrev main_v67 : Ref sig .tc := ⟨.hbm, 103, rfl⟩
abbrev main_c_13 : Ref sig .tc := ⟨.hbm, 104, rfl⟩
abbrev main_v68 : Ref sig .tc := ⟨.hbm, 105, rfl⟩
abbrev main_v69 : Ref sig .tc := ⟨.hbm, 106, rfl⟩
abbrev main_c_14 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_15 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_17 : Ref sig .tc := ⟨.hbm, 124, rfl⟩
abbrev main_v84 : Ref sig .tc := ⟨.hbm, 125, rfl⟩
abbrev main_v85 : Ref sig .tc := ⟨.hbm, 126, rfl⟩
abbrev main_c_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_19 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  dot_S50000x32_S32x64_S50000x64_1_0_0_1_n_n_wf : DotDims.WF S50000x32 S32x64 S50000x64 [1] [0] [0] [1] [] []
  dot_S50000x64_S64x256_S50000x256_1_0_0_1_n_n_wf : DotDims.WF S50000x64 S64x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x32_S32x3_S50000x3_1_0_0_1_n_n_wf : DotDims.WF S50000x32 S32x3 S50000x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x32_S32x3_S50000x3_1_0_0_1_n_n : DotDims S50000x32 S32x3 S50000x3 where
  lhsContracting := [1]
  rhsContracting := [0]
  lhsNonContracting := [0]
  rhsNonContracting := [1]
  lhsBatch := []
  rhsBatch := []
  wf := dot_S50000x32_S32x3_S50000x3_1_0_0_1_n_n_wf

class Facts : Prop extends Facts₀ where

variable [Facts]
-- ==== Proof.Walk.lean ====
import proofs.«132482_j52905407152187_1_alg».proof.Proof.Gen.KernelIdeal.Frame

/-! # Buffers a segment of @main does not write

A buffer that a segment of @main does not write holds after the segment what it held before it. So each
argument array still holds its launch contents at the boundary where it is read, and an intermediate buffer
persists from the boundary where it is written to the boundary where it is read. The whole run ends with
every unscoped buffer at the last boundary's contents. -/

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result buffers named

The launch theorem over @main's segments: every weakly fair execution terminates, and in every final state each
unscoped buffer holds the last boundary's contents; the three result buffers are read off at that boundary and
each argument array is walked back to the launch memory. -/

set_option backward.isDefEq.respectTransparency.types false in
theorem run_results : θ_run defs (onTc (τ := τ) (main (F := F))) ⟨m, fun _ => 0, ρ⟩ (fun r => ∀ c : Dev nD,
      r.2.mem ((c.tc : Thread nD τ).loc main_v64) = W15 m ρ c (Proc.devRef .tc main_v64)
      ∧ r.2.mem ((c.tc : Thread nD τ).loc main_v47) = W15 m ρ c (Proc.devRef .tc main_v47)
      ∧ r.2.mem ((c.tc : Thread nD τ).loc main_v66) = W15 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v64 (by decide)),
       h c _ (mem_uc main_v47 (by decide)),
       h c _ (mem_uc main_v66 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

/-! ## One segment

A host stretch keeps every buffer that none of its operations writes: the stretch's operations are listed, each
one's written buffer is read off, and it differs from the buffer in hand. (A region keeps every buffer that is
not one of its arrays, and each of its input arrays: the generated boundary lemmas.) -/

local macro "keep_host " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The argument arrays at the boundaries where they are read

No host operation writes an argument array, and no region before the one that reads it has it among its arrays:
walking back segment by segment, the array at its boundary is the launch memory's. -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := keep_host hostOps0_2 main_arg0
    _ = W1 m ρ c (Proc.devRef .tc main_arg0) := keep_host hostOps0_1 main_arg0
    _ = W0 m ρ c (Proc.devRef .tc main_arg0) := keep_host hostOps0 main_arg0
    _ = m ((c : Thread nD τ).loc main_arg0) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := keep_host hostOps0_2 main_arg3
    _ = W1 m ρ c (Proc.devRef .tc main_arg3) := keep_host hostOps0_1 main_arg3
    _ = W0 m ρ c (Proc.devRef .tc main_arg3) := keep_host hostOps0 main_arg3
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := keep_host hostOps0_2 main_arg4
    _ = W1 m ρ c (Proc.devRef .tc main_arg4) := keep_host hostOps0_1 main_arg4
    _ = W0 m ρ c (Proc.devRef .tc main_arg4) := keep_host hostOps0 main_arg4
    _ = m ((c : Thread nD τ).loc main_arg4) := rfl

theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keep_host hostOps1 main_arg6
    _ = W3 m ρ c (Proc.devRef .tc main_arg6) := W4_of_ne m ρ c main_arg6 (by decide)
    _ = W2 m ρ c (Proc.devRef .tc main_arg6) := keep_host hostOps0_2 main_arg6
    _ = W1 m ρ c (Proc.devRef .tc main_arg6) := keep_host hostOps0_1 main_arg6
    _ = W0 m ρ c (Proc.devRef .tc main_arg6) := keep_host hostOps0 main_arg6
    _ = m ((c : Thread nD τ).loc main_arg6) := rfl

theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := keep_host hostOps2 main_arg5
    _ = W5 m ρ c (Proc.devRef .tc main_arg5) := W6_of_ne m ρ c main_arg5 (by decide)
    _ = W4 m ρ c (Proc.devRef .tc main_arg5) := keep_host hostOps1 main_arg5
    _ = W3 m ρ c (Proc.devRef .tc main_arg5) := W4_of_ne m ρ c main_arg5 (by decide)
    _ = W2 m ρ c (Proc.devRef .tc main_arg5) := keep_host hostOps0_2 main_arg5
    _ = W1 m ρ c (Proc.devRef .tc main_arg5) := keep_host hostOps0_1 main_arg5
    _ = W0 m ρ c (Proc.devRef .tc main_arg5) := keep_host hostOps0 main_arg5
    _ = m ((c : Thread nD τ).loc main_arg5) := rfl

theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := keep_host hostOps2 main_arg8
    _ = W5 m ρ c (Proc.devRef .tc main_arg8) := W6_of_ne m ρ c main_arg8 (by decide)
    _ = W4 m ρ c (Proc.devRef .tc main_arg8) := keep_host hostOps1 main_arg8
    _ = W3 m ρ c (Proc.devRef .tc main_arg8) := W4_of_ne m ρ c main_arg8 (by decide)
    _ = W2 m ρ c (Proc.devRef .tc main_arg8) := keep_host hostOps0_2 main_arg8
    _ = W1 m ρ c (Proc.devRef .tc main_arg8) := keep_host hostOps0_1 main_arg8
    _ = W0 m ρ c (Proc.devRef .tc main_arg8) := keep_host hostOps0 main_arg8
    _ = m ((c : Thread nD τ).loc main_arg8) := rfl

theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := keep_host hostOps3 main_arg7
    _ = W7 m ρ c (Proc.devRef .tc main_arg7) := W8_of_ne m ρ c main_arg7 (by decide)
    _ = W6 m ρ c (Proc.devRef .tc main_arg7) := keep_host hostOps2 main_arg7
    _ = W5 m ρ c (Proc.devRef .tc main_arg7) := W6_of_ne m ρ c main_arg7 (by decide)
    _ = W4 m ρ c (Proc.devRef .tc main_arg7) := keep_host hostOps1 main_arg7
    _ = W3 m ρ c (Proc.devRef .tc main_arg7) := W4_of_ne m ρ c main_arg7 (by decide)
    _ = W2 m ρ c (Proc.devRef .tc main_arg7) := keep_host hostOps0_2 main_arg7
    _ = W1 m ρ c (Proc.devRef .tc main_arg7) := keep_host hostOps0_1 main_arg7
    _ = W0 m ρ c (Proc.devRef .tc main_arg7) := keep_host hostOps0 main_arg7
    _ = m ((c : Thread nD τ).loc main_arg7) := rfl

theorem W10_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := keep_host hostOps3 main_arg9
    _ = W7 m ρ c (Proc.devRef .tc main_arg9) := W8_of_ne m ρ c main_arg9 (by decide)
    _ = W6 m ρ c (Proc.devRef .tc main_arg9) := keep_host hostOps2 main_arg9
    _ = W5 m ρ c (Proc.devRef .tc main_arg9) := W6_of_ne m ρ c main_arg9 (by decide)
    _ = W4 m ρ c (Proc.devRef .tc main_arg9) := keep_host hostOps1 main_arg9
    _ = W3 m ρ c (Proc.devRef .tc main_arg9) := W4_of_ne m ρ c main_arg9 (by decide)
    _ = W2 m ρ c (Proc.devRef .tc main_arg9) := keep_host hostOps0_2 main_arg9
    _ = W1 m ρ c (Proc.devRef .tc main_arg9) := keep_host hostOps0_1 main_arg9
    _ = W0 m ρ c (Proc.devRef .tc main_arg9) := keep_host hostOps0 main_arg9
    _ = m ((c : Thread nD τ).loc main_arg9) := rfl

theorem W11_arg10 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := W10_of_ne m ρ c main_arg10 (by decide)
    _ = W8 m ρ c (Proc.devRef .tc main_arg10) := keep_host hostOps3 main_arg10
    _ = W7 m ρ c (Proc.devRef .tc main_arg10) := W8_of_ne m ρ c main_arg10 (by decide)
    _ = W6 m ρ c (Proc.devRef .tc main_arg10) := keep_host hostOps2 main_arg10
    _ = W5 m ρ c (Proc.devRef .tc main_arg10) := W6_of_ne m ρ c main_arg10 (by decide)
    _ = W4 m ρ c (Proc.devRef .tc main_arg10) := keep_host hostOps1 main_arg10
    _ = W3 m ρ c (Proc.devRef .tc main_arg10) := W4_of_ne m ρ c main_arg10 (by decide)
    _ = W2 m ρ c (Proc.devRef .tc main_arg10) := keep_host hostOps0_2 main_arg10
    _ = W1 m ρ c (Proc.devRef .tc main_arg10) := keep_host hostOps0_1 main_arg10
    _ = W0 m ρ c (Proc.devRef .tc main_arg10) := keep_host hostOps0 main_arg10
    _ = m ((c : Thread nD τ).loc main_arg10) := rfl

theorem W13_arg12 (c : Dev nD) : W13 m ρ c (Proc.devRef .tc main_arg12) = m ((c : Thread nD τ).loc main_arg12) :=
  calc W13 m ρ c (Proc.devRef .tc main_arg12)
    _ = W12 m ρ c (Proc.devRef .tc main_arg12) := W13_of_ne m ρ c main_arg12 (by decide)
    _ = W11 m ρ c (Proc.devRef .tc main_arg12) := keep_host hostOps5 main_arg12
    _ = W10 m ρ c (Proc.devRef .tc main_arg12) := W11_of_ne m ρ c main_arg12 (by decide)
    _ = W9 m ρ c (Proc.devRef .tc main_arg12) := W10_of_ne m ρ c main_arg12 (by decide)
    _ = W8 m ρ c (Proc.devRef .tc main_arg12) := keep_host hostOps3 main_arg12
    _ = W7 m ρ c (Proc.devRef .tc main_arg12) := W8_of_ne m ρ c main_arg12 (by decide)
    _ = W6 m ρ c (Proc.devRef .tc main_arg12) := keep_host hostOps2 main_arg12
    _ = W5 m ρ c (Proc.devRef .tc main_arg12) := W6_of_ne m ρ c main_arg12 (by decide)
    _ = W4 m ρ c (Proc.devRef .tc main_arg12) := keep_host hostOps1 main_arg12
    _ = W3 m ρ c (Proc.devRef .tc main_arg12) := W4_of_ne m ρ c main_arg12 (by decide)
    _ = W2 m ρ c (Proc.devRef .tc main_arg12) := keep_host hostOps0_2 main_arg12
    _ = W1 m ρ c (Proc.devRef .tc main_arg12) := keep_host hostOps0_1 main_arg12
    _ = W0 m ρ c (Proc.devRef .tc main_arg12) := keep_host hostOps0 main_arg12
    _ = m ((c : Thread nD τ).loc main_arg12) := rfl

theorem W14_arg11 (c : Dev nD) : W14 m ρ c (Proc.devRef .tc main_arg11) = m ((c : Thread nD τ).loc main_arg11) :=
  calc W14 m ρ c (Proc.devRef .tc main_arg11)
    _ = W13 m ρ c (Proc.devRef .tc main_arg11) := keep_host hostOps6 main_arg11
    _ = W12 m ρ c (Proc.devRef .tc main_arg11) := W13_of_ne m ρ c main_arg11 (by decide)
    _ = W11 m ρ c (Proc.devRef .tc main_arg11) := keep_host hostOps5 main_arg11
    _ = W10 m ρ c (Proc.devRef .tc main_arg11) := W11_of_ne m ρ c main_arg11 (by decide)
    _ = W9 m ρ c (Proc.devRef .tc main_arg11) := W10_of_ne m ρ c main_arg11 (by decide)
    _ = W8 m ρ c (Proc.devRef .tc main_arg11) := keep_host hostOps3 main_arg11
    _ = W7 m ρ c (Proc.devRef .tc main_arg11) := W8_of_ne m ρ c main_arg11 (by decide)
    _ = W6 m ρ c (Proc.devRef .tc main_arg11) := keep_host hostOps2 main_arg11
    _ = W5 m ρ c (Proc.devRef .tc main_arg11) := W6_of_ne m ρ c main_arg11 (by decide)
    _ = W4 m ρ c (Proc.devRef .tc main_arg11) := keep_host hostOps1 main_arg11
    _ = W3 m ρ c (Proc.devRef .tc main_arg11) := W4_of_ne m ρ c main_arg11 (by decide)
    _ = W2 m ρ c (Proc.devRef .tc main_arg11) := keep_host hostOps0_2 main_arg11
    _ = W1 m ρ c (Proc.devRef .tc main_arg11) := keep_host hostOps0_1 main_arg11
    _ = W0 m ρ c (Proc.devRef .tc main_arg11) := keep_host hostOps0 main_arg11
    _ = m ((c : Thread nD τ).loc main_arg11) := rfl

/-! ## Intermediate buffers, from where they are written to where they are read

`main_v5`, `main_v6`, `main_v30` are written before region 0 and no later segment up to region 4's exit writes
them. `main_v45` (region 1's output) survives the next host stretch. `main_v47` (region 2's output) is never
written again: regions 3 and 6 read it through their first input window, which a region leaves as entered.
`main_v64` (region 5's output) survives to the end. -/

theorem W4_v5 (c : Dev nD) : W4 m ρ c (Proc.devRef .tc main_v5) = W3 m ρ c (Proc.devRef .tc main_v5) :=
  W4_of_ne m ρ c main_v5 (by decide)

theorem W4_v6 (c : Dev nD) : W4 m ρ c (Proc.devRef .tc main_v6) = W3 m ρ c (Proc.devRef .tc main_v6) :=
  W4_of_ne m ρ c main_v6 (by decide)

theorem W4_v30 (c : Dev nD) : W4 m ρ c (Proc.devRef .tc main_v30) = W3 m ρ c (Proc.devRef .tc main_v30) :=
  W4_of_ne m ρ c main_v30 (by decide)

theorem W11_v5 (c : Dev nD) : W11 m ρ c (Proc.devRef .tc main_v5) = W3 m ρ c (Proc.devRef .tc main_v5) :=
  calc W11 m ρ c (Proc.devRef .tc main_v5)
    _ = W10 m ρ c (Proc.devRef .tc main_v5) := W11_of_ne m ρ c main_v5 (by decide)
    _ = W9 m ρ c (Proc.devRef .tc main_v5) := W10_of_ne m ρ c main_v5 (by decide)
    _ = W8 m ρ c (Proc.devRef .tc main_v5) := keep_host hostOps3 main_v5
    _ = W7 m ρ c (Proc.devRef .tc main_v5) := W8_of_ne m ρ c main_v5 (by decide)
    _ = W6 m ρ c (Proc.devRef .tc main_v5) := keep_host hostOps2 main_v5
    _ = W5 m ρ c (Proc.devRef .tc main_v5) := W6_of_ne m ρ c main_v5 (by decide)
    _ = W4 m ρ c (Proc.devRef .tc main_v5) := keep_host hostOps1 main_v5
    _ = W3 m ρ c (Proc.devRef .tc main_v5) := W4_of_ne m ρ c main_v5 (by decide)

theorem W11_v6 (c : Dev nD) : W11 m ρ c (Proc.devRef .tc main_v6) = W3 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := W10_of_ne m ρ c main_v6 (by decide)
    _ = W8 m ρ c (Proc.devRef .tc main_v6) := keep_host hostOps3 main_v6
    _ = W7 m ρ c (Proc.devRef .tc main_v6) := W8_of_ne m ρ c main_v6 (by decide)
    _ = W6 m ρ c (Proc.devRef .tc main_v6) := keep_host hostOps2 main_v6
    _ = W5 m ρ c (Proc.devRef .tc main_v6) := W6_of_ne m ρ c main_v6 (by decide)
    _ = W4 m ρ c (Proc.devRef .tc main_v6) := keep_host hostOps1 main_v6
    _ = W3 m ρ c (Proc.devRef .tc main_v6) := W4_of_ne m ρ c main_v6 (by decide)

theorem W11_v30 (c : Dev nD) : W11 m ρ c (Proc.devRef .tc main_v30) = W3 m ρ c (Proc.devRef .tc main_v30) :=
  calc W11 m ρ c (Proc.devRef .tc main_v30)
    _ = W10 m ρ c (Proc.devRef .tc main_v30) := W11_of_ne m ρ c main_v30 (by decide)
    _ = W9 m ρ c (Proc.devRef .tc main_v30) := W10_of_ne m ρ c main_v30 (by decide)
    _ = W8 m ρ c (Proc.devRef .tc main_v30) := keep_host hostOps3 main_v30
    _ = W7 m ρ c (Proc.devRef .tc main_v30) := W8_of_ne m ρ c main_v30 (by decide)
    _ = W6 m ρ c (Proc.devRef .tc main_v30) := keep_host hostOps2 main_v30
    _ = W5 m ρ c (Proc.devRef .tc main_v30) := W6_of_ne m ρ c main_v30 (by decide)
    _ = W4 m ρ c (Proc.devRef .tc main_v30) := keep_host hostOps1 main_v30
    _ = W3 m ρ c (Proc.devRef .tc main_v30) := W4_of_ne m ρ c main_v30 (by decide)

theorem W7_v45 (c : Dev nD) : W7 m ρ c (Proc.devRef .tc main_v45) = W6 m ρ c (Proc.devRef .tc main_v45) :=
  keep_host hostOps2 main_v45

theorem W9_v47 (c : Dev nD) : W9 m ρ c (Proc.devRef .tc main_v47) = W8 m ρ c (Proc.devRef .tc main_v47) :=
  keep_host hostOps3 main_v47

theorem W14_v47 (c : Dev nD) : W14 m ρ c (Proc.devRef .tc main_v47) = W8 m ρ c (Proc.devRef .tc main_v47) :=
  calc W14 m ρ c (Proc.devRef .tc main_v47)
    _ = W13 m ρ c (Proc.devRef .tc main_v47) := keep_host hostOps6 main_v47
    _ = W12 m ρ c (Proc.devRef .tc main_v47) := W13_of_ne m ρ c main_v47 (by decide)
    _ = W11 m ρ c (Proc.devRef .tc main_v47) := keep_host hostOps5 main_v47
    _ = W10 m ρ c (Proc.devRef .tc main_v47) := W11_of_ne m ρ c main_v47 (by decide)
    _ = W9 m ρ c (Proc.devRef .tc main_v47) := (W10_arr m ρ c 0).trans (((dat3 (V9 m ρ) c).arrAt_in 0 rfl _).trans (A_eq3 (V9 m ρ) c 0))
    _ = W8 m ρ c (Proc.devRef .tc main_v47) := keep_host hostOps3 main_v47

theorem W15_v47 (c : Dev nD) : W15 m ρ c (Proc.devRef .tc main_v47) = W8 m ρ c (Proc.devRef .tc main_v47) :=
  calc W15 m ρ c (Proc.devRef .tc main_v47)
    _ = W14 m ρ c (Proc.devRef .tc main_v47) := (W15_arr m ρ c 0).trans (((dat6 (V14 m ρ) c).arrAt_in 0 rfl _).trans (A_eq6 (V14 m ρ) c 0))
    _ = W13 m ρ c (Proc.devRef .tc main_v47) := keep_host hostOps6 main_v47
    _ = W12 m ρ c (Proc.devRef .tc main_v47) := W13_of_ne m ρ c main_v47 (by decide)
    _ = W11 m ρ c (Proc.devRef .tc main_v47) := keep_host hostOps5 main_v47
    _ = W10 m ρ c (Proc.devRef .tc main_v47) := W11_of_ne m ρ c main_v47 (by decide)
    _ = W9 m ρ c (Proc.devRef .tc main_v47) := (W10_arr m ρ c 0).trans (((dat3 (V9 m ρ) c).arrAt_in 0 rfl _).trans (A_eq3 (V9 m ρ) c 0))
    _ = W8 m ρ c (Proc.devRef .tc main_v47) := keep_host hostOps3 main_v47

theorem W15_v64 (c : Dev nD) : W15 m ρ c (Proc.devRef .tc main_v64) = W13 m ρ c (Proc.devRef .tc main_v64) :=
  calc W15 m ρ c (Proc.devRef .tc main_v64)
    _ = W14 m ρ c (Proc.devRef .tc main_v64) := W15_of_ne m ρ c main_v64 (by decide)
    _ = W13 m ρ c (Proc.devRef .tc main_v64) := keep_host hostOps6 main_v64

end Cert.KernelIdeal.Walk

end
-- ==== Proof.HostVals.lean ====
import proofs.«132482_j52905407152187_1_alg».proof.Proof.Gen.KernelIdeal.Frame
import proofs.«132482_j52905407152187_1_alg».proof.Proof.RefReadP
import Idealize.ShloMosaic.Lib.StableHlo.Run
import Idealize.ShloMosaic.Lib.Pipeline.Value
import Idealize.ShloMosaic.Lib.ValueLayout

/-! # What the host operations between the kernel regions compute

Between two kernel regions the program runs plain array operations: an edge aggregation (gather the
rows of the feature matrix at the edges' sources, scale each by the edge's normalisation, scatter-add
into the rows at the edges' destinations) and the reshape of a bias vector into a one-row matrix. This
module states each such stretch as a pure function of the buffers it reads, and shows that these
functions are the reference program's own operations. -/

set_option maxRecDepth 16384

noncomputable section

namespace Cert.KernelIdeal.HostVals

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The edge aggregation as one term -/

/-- The aggregation over the edges at 64 features: `out[d e] += h[s e] * nrm[e]`, the source indices
    wrapped into range first (a negative index counts from the end). -/
def agg64 (h : (⟨S50000x64, .f32⟩ : BufTy).Contents (Elt F)) (s d : (⟨S850000, .i32⟩ : BufTy).Contents (Elt F))
    (nrm : (⟨S850000x1, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 h
            (broadcastInDim S850000x1 ![0] bcast_S850000_S850000x1_0
              (select (cmpi .slt s (broadcastInDim S850000 ![] bcast_S_S850000 (constantI S_ 32 0#32)))
                (addi s (broadcastInDim S850000 ![] bcast_S_S850000 (constantI S_ 32 50000#32))) s)))
          (broadcastInDim S850000x64 ![0, 1] bcast_S850000x1_S850000x64_0_1 nrm))

/-- The same aggregation at 256 features. -/
def agg256 (h : (⟨S50000x256, .f32⟩ : BufTy).Contents (Elt F)) (s d : (⟨S850000, .i32⟩ : BufTy).Contents (Elt F))
    (nrm : (⟨S850000x1, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 d)
    (mulf (Host.gather gather_S50000x256_S850000x1_S850000x256_1_0_n_n_0_1_1256 h
            (broadcastInDim S850000x1 ![0] bcast_S850000_S850000x1_0
              (select (cmpi .slt s (broadcastInDim S850000 ![] bcast_S_S850000 (constantI S_ 32 0#32)))
                (addi s (broadcastInDim S850000 ![] bcast_S_S850000 (constantI S_ 32 50000#32))) s)))
          (broadcastInDim S850000x256 ![0, 1] bcast_S850000x1_S850000x256_0_1 nrm))

/-! ## The reference's aggregation is the same term of the reference's own stages -/

/-- The first layer's aggregation in the reference. -/
theorem ref_agg64 (x0 : (⟨Cert.ReferenceIdeal.S50000x256, .f32⟩ : BufTy).Contents (Elt F))
    (x1 : (⟨Cert.ReferenceIdeal.S2x800000, .i32⟩ : BufTy).Contents (Elt F))
    (x3 : (⟨Cert.ReferenceIdeal.S256x64, .f32⟩ : BufTy).Contents (Elt F)) :
    Cert.ReferenceIdeal.ReadP.val_main_v43 (F := F) x0 x1 x3
      = agg64 (Cert.ReferenceIdeal.ReadP.val_main_v30 x0 x3) (Cert.ReferenceIdeal.ReadP.val_main_v5 x1) (Cert.ReferenceIdeal.ReadP.val_main_v6 x1) (Cert.ReferenceIdeal.ReadP.val_main_v38 x1) := by
  unfold Cert.ReferenceIdeal.ReadP.val_main_v43 Cert.ReferenceIdeal.ReadP.val_main_v41 Cert.ReferenceIdeal.ReadP.val_main_v42 Cert.ReferenceIdeal.ReadP.val_main_v40 Cert.ReferenceIdeal.ReadP.val_main_v39 Cert.ReferenceIdeal.ReadP.val_main_v37
    Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32 Cert.ReferenceIdeal.ReadP.val_main_v31
    Cert.ReferenceIdeal.ReadP.val_main_c_6 Cert.ReferenceIdeal.ReadP.val_main_c_7 Cert.ReferenceIdeal.ReadP.val_main_cst_8 agg64
  rfl

/-- The reference computes the edge lists and the normalisation a second time for its second layer:
    the same operations on the same argument. -/
theorem ref_v58 (x1 : (⟨Cert.ReferenceIdeal.S2x800000, .i32⟩ : BufTy).Contents (Elt F)) :
    Cert.ReferenceIdeal.ReadP.val_main_v58 (F := F) x1 = Cert.ReferenceIdeal.ReadP.val_main_v5 x1 := rfl
theorem ref_v59 (x1 : (⟨Cert.ReferenceIdeal.S2x800000, .i32⟩ : BufTy).Contents (Elt F)) :
    Cert.ReferenceIdeal.ReadP.val_main_v59 (F := F) x1 = Cert.ReferenceIdeal.ReadP.val_main_v6 x1 := rfl
theorem ref_v91 (x1 : (⟨Cert.ReferenceIdeal.S2x800000, .i32⟩ : BufTy).Contents (Elt F)) :
    Cert.ReferenceIdeal.ReadP.val_main_v91 (F := F) x1 = Cert.ReferenceIdeal.ReadP.val_main_v38 x1 := rfl

/-- The second layer's aggregation in the reference. -/
theorem ref_agg256 (x0 : (⟨Cert.ReferenceIdeal.S50000x256, .f32⟩ : BufTy).Contents (Elt F)) (x1 : (⟨Cert.ReferenceIdeal.S2x800000, .i32⟩ : BufTy).Contents (Elt F)) (x3 : (⟨Cert.ReferenceIdeal.S256x64, .f32⟩ : BufTy).Contents (Elt F)) (x4 : (⟨Cert.ReferenceIdeal.S64, .f32⟩ : BufTy).Contents (Elt F)) (x5 : (⟨Cert.ReferenceIdeal.S64x32, .f32⟩ : BufTy).Contents (Elt F)) (x6 : (⟨Cert.ReferenceIdeal.S32, .f32⟩ : BufTy).Contents (Elt F)) (x7 : (⟨Cert.ReferenceIdeal.S32x64, .f32⟩ : BufTy).Contents (Elt F)) (x8 : (⟨Cert.ReferenceIdeal.S64, .f32⟩ : BufTy).Contents (Elt F)) (x9 : (⟨Cert.ReferenceIdeal.S64x256, .f32⟩ : BufTy).Contents (Elt F)) :
    Cert.ReferenceIdeal.ReadP.val_main_v96 (F := F) x0 x1 x3 x4 x5 x6 x7 x8 x9
      = agg256 (Cert.ReferenceIdeal.ReadP.val_main_v83 x0 x1 x3 x4 x5 x6 x7 x8 x9) (Cert.ReferenceIdeal.ReadP.val_main_v5 x1) (Cert.ReferenceIdeal.ReadP.val_main_v6 x1)
          (Cert.ReferenceIdeal.ReadP.val_main_v38 x1) := by
  unfold Cert.ReferenceIdeal.ReadP.val_main_v96 Cert.ReferenceIdeal.ReadP.val_main_v95 Cert.ReferenceIdeal.ReadP.val_main_v94 Cert.ReferenceIdeal.ReadP.val_main_v93 Cert.ReferenceIdeal.ReadP.val_main_v92 Cert.ReferenceIdeal.ReadP.val_main_v90
    Cert.ReferenceIdeal.ReadP.val_main_v89 Cert.ReferenceIdeal.ReadP.val_main_v88 Cert.ReferenceIdeal.ReadP.val_main_v87 Cert.ReferenceIdeal.ReadP.val_main_v86 Cert.ReferenceIdeal.ReadP.val_main_v85 Cert.ReferenceIdeal.ReadP.val_main_v84
    Cert.ReferenceIdeal.ReadP.val_main_c_17 Cert.ReferenceIdeal.ReadP.val_main_c_18 Cert.ReferenceIdeal.ReadP.val_main_cst_19 agg256
  rw [ref_v58, ref_v59, ref_v91]
  rfl

/-! ## The host stretches after regions 0 and 4: the aggregation of the region's output -/

variable (m : (ℓ : Loc nD τ sig) → Buf (Elt F) ℓ) (ρ : Dev nD → PrngReg)

set_option maxHeartbeats 4000000 in
/-- After region 0, the host aggregates region 0's output over the edges. -/
theorem W5_v43 (c : Dev nD) :
    W5 m ρ c (Proc.devRef .tc main_v43)
      = agg64 (W4 m ρ c (Proc.devRef .tc main_v31)) (W4 m ρ c (Proc.devRef .tc main_v5))
          (W4 m ρ c (Proc.devRef .tc main_v6)) (W4 m ρ c (Proc.devRef .tc main_v30)) := by
  show StableHlo.after hostOps1 (W4 m ρ c) (Proc.devRef .tc main_v43) = _
  after_results_simp
  rfl

set_option maxHeartbeats 4000000 in
/-- After region 4, the host aggregates region 4's output over the edges. -/
theorem W12_v62 (c : Dev nD) :
    W12 m ρ c (Proc.devRef .tc main_v62)
      = agg256 (W11 m ρ c (Proc.devRef .tc main_v50)) (W11 m ρ c (Proc.devRef .tc main_v5))
          (W11 m ρ c (Proc.devRef .tc main_v6)) (W11 m ρ c (Proc.devRef .tc main_v30)) := by
  show StableHlo.after hostOps5 (W11 m ρ c) (Proc.devRef .tc main_v62) = _
  after_results_simp
  rfl

/-! ## The bias rows: a bias vector `[n]` reshaped to the one-row matrix `[1, n]` -/

theorem W5_v44 (c : Dev nD) :
    W5 m ρ c (Proc.devRef .tc main_v44) = shapeCast S1x64 (W4 m ρ c (Proc.devRef .tc main_arg4)) shapeCasts_S64_S1x64 := by
  show StableHlo.after hostOps1 (W4 m ρ c) (Proc.devRef .tc main_v44) = _
  after_results_simp
  rfl

theorem W7_v46 (c : Dev nD) :
    W7 m ρ c (Proc.devRef .tc main_v46) = shapeCast S1x32 (W6 m ρ c (Proc.devRef .tc main_arg6)) shapeCasts_S32_S1x32 := by
  show StableHlo.after hostOps2 (W6 m ρ c) (Proc.devRef .tc main_v46) = _
  after_results_simp
  rfl

theorem W9_v48 (c : Dev nD) :
    W9 m ρ c (Proc.devRef .tc main_v48) = shapeCast S1x64 (W8 m ρ c (Proc.devRef .tc main_arg8)) shapeCasts_S64_S1x64 := by
  show StableHlo.after hostOps3 (W8 m ρ c) (Proc.devRef .tc main_v48) = _
  after_results_simp
  rfl

theorem W12_v63 (c : Dev nD) :
    W12 m ρ c (Proc.devRef .tc main_v63) = shapeCast S1x256 (W11 m ρ c (Proc.devRef .tc main_arg10)) shapeCasts_S256_S1x256 := by
  show StableHlo.after hostOps5 (W11 m ρ c) (Proc.devRef .tc main_v63) = _
  after_results_simp
  rfl

theorem W14_v65 (c : Dev nD) :
    W14 m ρ c (Proc.devRef .tc main_v65) = shapeCast S1x3 (W13 m ρ c (Proc.devRef .tc main_arg12)) shapeCasts_S3_S1x3 := by
  show StableHlo.after hostOps6 (W13 m ρ c) (Proc.devRef .tc main_v65) = _
  after_results_simp
  rfl

/-! ## A reshape `[n] → [1, n]` is the broadcast along the second axis that the reference uses -/

/-- Both read the vector at the second coordinate. -/
theorem row_eq {n : Nat} (hn : n ≠ 1) {α : Type} (x : (⟨1, ![n]⟩ : Shape).Idx → α)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ x hc = broadcastInDim ⟨2, ![1, n]⟩ ![1] hb x := by
  funext i
  rw [shapeCast_addUnit_apply (n := 1) ![n] x hc i]
  exact (broadcastInDim_apply _ hb x i (fun a => i a.succ) (fun a => match a with
    | ⟨0, _⟩ => by show (i 1).val = if n = 1 then 0 else (i 1).val; rw [if_neg hn])).symm

theorem row64 (x : (⟨S64, .f32⟩ : BufTy).Contents (Elt F)) :
    shapeCast S1x64 x shapeCasts_S64_S1x64 = Cert.ReferenceIdeal.ReadP.val_main_v44 (F := F) x :=
  row_eq (by decide) x _ _

theorem row64' (x : (⟨S64, .f32⟩ : BufTy).Contents (Elt F)) :
    shapeCast S1x64 x shapeCasts_S64_S1x64 = Cert.ReferenceIdeal.ReadP.val_main_v53 (F := F) x :=
  row_eq (by decide) x _ _

theorem row32 (x : (⟨S32, .f32⟩ : BufTy).Contents (Elt F)) :
    shapeCast S1x32 x shapeCasts_S32_S1x32 = Cert.ReferenceIdeal.ReadP.val_main_v49 (F := F) x :=
  row_eq (by decide) x _ _

theorem row256 (x : (⟨S256, .f32⟩ : BufTy).Contents (Elt F)) :
    shapeCast S1x256 x shapeCasts_S256_S1x256 = Cert.ReferenceIdeal.ReadP.val_main_v97 (F := F) x :=
  row_eq (by decide) x _ _

theorem row3 (x : (⟨S3, .f32⟩ : BufTy).Contents (Elt F)) :
    shapeCast S1x3 x shapeCasts_S3_S1x3 = Cert.ReferenceIdeal.ReadP.val_main_v101 (F := F) x :=
  row_eq (by decide) x _ _

/-! ## The edge lists and the normalisation, computed by the host before region 0, are the reference's -/

/-- Reads a host operation's result at a buffer: the operation's function of its operands at its own
    result buffer, the earlier contents at any other buffer. Repeated until no operation is left. -/
local macro "results_rw" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

set_option maxHeartbeats 4000000 in
/-- The source list: the first row of the edge array, then the self loops. -/
theorem W3_v5 (c : Dev nD) :
    W3 m ρ c (Proc.devRef .tc main_v5) = Cert.ReferenceIdeal.ReadP.val_main_v5 (F := F) (m ((c : Thread nD τ).loc main_arg1)) := by
  show StableHlo.after hostOps0_2 (StableHlo.after hostOps0_1 (StableHlo.after hostOps0 (W0 m ρ c)))
    (Proc.devRef .tc main_v5) = _
  after_results_simp
  results_rw
  rfl

set_option maxHeartbeats 4000000 in
/-- The destination list: the second row of the edge array, then the self loops. -/
theorem W3_v6 (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c)))
    (Proc.devRef .tc main_v6) = _
  after_results_simp
  results_rw
  rfl

set_option maxHeartbeats 8000000 in
/-- The edges' normalisation `deg[s e]^(-1/2) * deg[d e]^(-1/2)` as a column. -/
theorem W3_v30 (c : Dev nD) :
    W3 m ρ c (Proc.devRef .tc main_v30) = Cert.ReferenceIdeal.ReadP.val_main_v38 (F := F) (m ((c : Thread nD τ).loc main_arg1)) := by
  show StableHlo.after hostOps0_2 (StableHlo.after hostOps0_1 (StableHlo.after hostOps0 (W0 m ρ c)))
    (Proc.devRef .tc main_v30) = _
  after_results_simp
  results_rw
  rfl

end Cert.KernelIdeal.HostVals
-- ==== Proof.DotsK.lean ====
/-
  Dense layers, the kernel's side. Each dense layer of the network is a matrix product [rows, K] × [K, N] which the
  kernel computes one block of 5000 rows at a time into a zero accumulator. Over the extended reals the block's
  product at the entry (r, c) is the sum over k of left(r, k) · right(k, c): stated here for each of the five products,
  the contracted axis re-indexed by its one coordinate.
-/
import proofs.«132482_j52905407152187_1_alg».proof.Proof.Gen.KernelIdeal
import Idealize.ShloMosaic.Lib.ValueIdx
import Idealize.ShloMosaic.PureOps.Ideal.Laws

noncomputable section

open scoped BigOperators

namespace Cert.Bridge

open Idealize.ShloMosaic Idealize.ShloMosaic.TcCoe Idealize.SL.Sem

/-! ## The product [rows, 256] × [256, 64] -/

/-- Row `j 0`, column `k` of the left factor's block. -/
abbrev klA (j : Cert.KernelIdeal.S5000x64.Idx) (k : Fin 256) : Cert.KernelIdeal.S5000x256.Idx := fun a => match a with
  | ⟨0, _⟩ => ⟨(j 0).val, (j 0).isLt⟩
  | ⟨1, _⟩ => ⟨k.val, k.isLt⟩
/-- Row `k`, column `j 1` of the right factor. -/
abbrev krA (j : Cert.KernelIdeal.S5000x64.Idx) (k : Fin 256) : Cert.KernelIdeal.S256x64.Idx := fun a => match a with
  | ⟨0, _⟩ => ⟨k.val, k.isLt⟩
  | ⟨1, _⟩ => ⟨(j 1).val, (j 1).isLt⟩

theorem klhsA_0 (i : Cert.KernelIdeal.S5000x64.Idx) (q : Cert.KernelIdeal.dot_S5000x256_S256x64_S5000x64_1_0_0_1_n_n.contr.Idx) : (Cert.KernelIdeal.dot_S5000x256_S256x64_S5000x64_1_0_0_1_n_n.lhsIdx i q 0).val = (i 0).val := by
  unfold DotDims.lhsIdx
  rw [dif_neg (show ¬(0 : Fin Cert.KernelIdeal.S5000x256.rank) ∈ Cert.KernelIdeal.dot_S5000x256_S256x64_S5000x64_1_0_0_1_n_n.lhsBatch by decide), dif_pos (show (0 : Fin Cert.KernelIdeal.S5000x256.rank) ∈ Cert.KernelIdeal.dot_S5000x256_S256x64_S5000x64_1_0_0_1_n_n.lhsNonContracting by decide)]
  rfl
theorem klhsA_1 (i : Cert.KernelIdeal.S5000x64.Idx) (q : Cert.KernelIdeal.dot_S5000x256_S256x64_S5000x64_1_0_0_1_n_n.contr.Idx) : (Cert.KernelIdeal.dot_S5000x256_S256x64_S5000x64_1_0_0_1_n_n.lhsIdx i q 1).val = (q ⟨0, by decide⟩).val :=
  Cert.KernelIdeal.dot_S5000x256_S256x64_S5000x64_1_0_0_1_n_n.lhsIdx_val_of_single rfl i q
theorem krhsA_0 (i : Cert.KernelIdeal.S5000x64.Idx) (q : Cert.KernelIdeal.dot_S5000x256_S256x64_S5000x64_1_0_0_1_n_n.contr.Idx) : (Cert.KernelIdeal.dot_S5000x256_S256x64_S5000x64_1_0_0_1_n_n.rhsIdx i q 0).val = (q ⟨0, by decide⟩).val :=
  Cert.KernelIdeal.dot_S5000x256_S256x64_S5000x64_1_0_0_1_n_n.rhsIdx_val_of_single rfl i q
theorem krhsA_1 (i : Cert.KernelIdeal.S5000x64.Idx) (q : Cert.KernelIdeal.dot_S5000x256_S256x64_S5000x64_1_0_0_1_n_n.contr.Idx) : (Cert.KernelIdeal.dot_S5000x256_S256x64_S5000x64_1_0_0_1_n_n.rhsIdx i q 1).val = (i 1).val := by
  unfold DotDims.rhsIdx
  rw [dif_neg (show ¬(1 : Fin Cert.KernelIdeal.S256x64.rank) ∈ Cert.KernelIdeal.dot_S5000x256_S256x64_S5000x64_1_0_0_1_n_n.rhsBatch by decide), dif_pos (show (1 : Fin Cert.KernelIdeal.S256x64.rank) ∈ Cert.KernelIdeal.dot_S5000x256_S256x64_S5000x64_1_0_0_1_n_n.rhsNonContracting by decide)]
  rfl

/-- A block's matrix product into the zero accumulator, at an entry: the sum over the contracted axis of the products
    of the row's and the column's entries. -/
theorem mmA_apply (L : FVec Ideal Cert.KernelIdeal.S5000x256 .bf16) (R : FVec Ideal Cert.KernelIdeal.S256x64 .bf16) (j : Cert.KernelIdeal.S5000x64.Idx) :
    matmul Cert.KernelIdeal.dot_S5000x256_S256x64_S5000x64_1_0_0_1_n_n none L R (constant Cert.KernelIdeal.S5000x64 .f32 0x00000000#32) j = ∑ k : Fin 256, L (klA j k) * R (krA j k) := by
  simp only [matmul]
  rw [Ideal.matmul_constant_zero_apply, ← Equiv.sum_comp (ValueIdx.contrEquiv1 Cert.KernelIdeal.dot_S5000x256_S256x64_S5000x64_1_0_0_1_n_n 256 rfl rfl).symm]
  refine Finset.sum_congr rfl fun k _ => ?_
  have hk := ValueIdx.contrEquiv1_symm_val Cert.KernelIdeal.dot_S5000x256_S256x64_S5000x64_1_0_0_1_n_n 256 rfl rfl k
  have el : Cert.KernelIdeal.dot_S5000x256_S256x64_S5000x64_1_0_0_1_n_n.lhsIdx j ((ValueIdx.contrEquiv1 Cert.KernelIdeal.dot_S5000x256_S256x64_S5000x64_1_0_0_1_n_n 256 rfl rfl).symm k) = klA j k := funext fun a => Fin.ext (by
    match a with
    | ⟨0, _⟩ => exact klhsA_0 _ _
    | ⟨1, _⟩ => exact (klhsA_1 _ _).trans hk)
  have er : Cert.KernelIdeal.dot_S5000x256_S256x64_S5000x64_1_0_0_1_n_n.rhsIdx j ((ValueIdx.contrEquiv1 Cert.KernelIdeal.dot_S5000x256_S256x64_S5000x64_1_0_0_1_n_n 256 rfl rfl).symm k) = krA j k := funext fun a => Fin.ext (by
    match a with
    | ⟨0, _⟩ => exact (krhsA_0 _ _).trans hk
    | ⟨1, _⟩ => exact krhsA_1 _ _)
  rw [el, er]

/-! ## The product [rows, 64] × [64, 32] -/

/-- Row `j 0`, column `k` of the left factor's block. -/
abbrev klB (j : Cert.KernelIdeal.S5000x32.Idx) (k : Fin 64) : Cert.KernelIdeal.S5000x64.Idx := fun a => match a with
  | ⟨0, _⟩ => ⟨(j 0).val, (j 0).isLt⟩
  | ⟨1, _⟩ => ⟨k.val, k.isLt⟩
/-- Row `k`, column `j 1` of the right factor. -/
abbrev krB (j : Cert.KernelIdeal.S5000x32.Idx) (k : Fin 64) : Cert.KernelIdeal.S64x32.Idx := fun a => match a with
  | ⟨0, _⟩ => ⟨k.val, k.isLt⟩
  | ⟨1, _⟩ => ⟨(j 1).val, (j 1).isLt⟩

theorem klhsB_0 (i : Cert.KernelIdeal.S5000x32.Idx) (q : Cert.KernelIdeal.dot_S5000x64_S64x32_S5000x32_1_0_0_1_n_n.contr.Idx) : (Cert.KernelIdeal.dot_S5000x64_S64x32_S5000x32_1_0_0_1_n_n.lhsIdx i q 0).val = (i 0).val := by
  unfold DotDims.lhsIdx
  rw [dif_neg (show ¬(0 : Fin Cert.KernelIdeal.S5000x64.rank) ∈ Cert.KernelIdeal.dot_S5000x64_S64x32_S5000x32_1_0_0_1_n_n.lhsBatch by decide), dif_pos (show (0 : Fin Cert.KernelIdeal.S5000x64.rank) ∈ Cert.KernelIdeal.dot_S5000x64_S64x32_S5000x32_1_0_0_1_n_n.lhsNonContracting by decide)]
  rfl
theorem klhsB_1 (i : Cert.KernelIdeal.S5000x32.Idx) (q : Cert.KernelIdeal.dot_S5000x64_S64x32_S5000x32_1_0_0_1_n_n.contr.Idx) : (Cert.KernelIdeal.dot_S5000x64_S64x32_S5000x32_1_0_0_1_n_n.lhsIdx i q 1).val = (q ⟨0, by decide⟩).val :=
  Cert.KernelIdeal.dot_S5000x64_S64x32_S5000x32_1_0_0_1_n_n.lhsIdx_val_of_single rfl i q
theorem krhsB_0 (i : Cert.KernelIdeal.S5000x32.Idx) (q : Cert.KernelIdeal.dot_S5000x64_S64x32_S5000x32_1_0_0_1_n_n.contr.Idx) : (Cert.KernelIdeal.dot_S5000x64_S64x32_S5000x32_1_0_0_1_n_n.rhsIdx i q 0).val = (q ⟨0, by decide⟩).val :=
  Cert.KernelIdeal.dot_S5000x64_S64x32_S5000x32_1_0_0_1_n_n.rhsIdx_val_of_single rfl i q
theorem krhsB_1 (i : Cert.KernelIdeal.S5000x32.Idx) (q : Cert.KernelIdeal.dot_S5000x64_S64x32_S5000x32_1_0_0_1_n_n.contr.Idx) : (Cert.KernelIdeal.dot_S5000x64_S64x32_S5000x32_1_0_0_1_n_n.rhsIdx i q 1).val = (i 1).val := by
  unfold DotDims.rhsIdx
  rw [dif_neg (show ¬(1 : Fin Cert.KernelIdeal.S64x32.rank) ∈ Cert.KernelIdeal.dot_S5000x64_S64x32_S5000x32_1_0_0_1_n_n.rhsBatch by decide), dif_pos (show (1 : Fin Cert.KernelIdeal.S64x32.rank) ∈ Cert.KernelIdeal.dot_S5000x64_S64x32_S5000x32_1_0_0_1_n_n.rhsNonContracting by decide)]
  rfl

/-- A block's matrix product into the zero accumulator, at an entry: the sum over the contracted axis of the products
    of the row's and the column's entries. -/
theorem mmB_apply (L : FVec Ideal Cert.KernelIdeal.S5000x64 .bf16) (R : FVec Ideal Cert.KernelIdeal.S64x32 .bf16) (j : Cert.KernelIdeal.S5000x32.Idx) :
    matmul Cert.KernelIdeal.dot_S5000x64_S64x32_S5000x32_1_0_0_1_n_n none L R (constant Cert.KernelIdeal.S5000x32 .f32 0x00000000#32) j = ∑ k : Fin 64, L (klB j k) * R (krB j k) := by
  simp only [matmul]
  rw [Ideal.matmul_constant_zero_apply, ← Equiv.sum_comp (ValueIdx.contrEquiv1 Cert.KernelIdeal.dot_S5000x64_S64x32_S5000x32_1_0_0_1_n_n 64 rfl rfl).symm]
  refine Finset.sum_congr rfl fun k _ => ?_
  have hk := ValueIdx.contrEquiv1_symm_val Cert.KernelIdeal.dot_S5000x64_S64x32_S5000x32_1_0_0_1_n_n 64 rfl rfl k
  have el : Cert.KernelIdeal.dot_S5000x64_S64x32_S5000x32_1_0_0_1_n_n.lhsIdx j ((ValueIdx.contrEquiv1 Cert.KernelIdeal.dot_S5000x64_S64x32_S5000x32_1_0_0_1_n_n 64 rfl rfl).symm k) = klB j k := funext fun a => Fin.ext (by
    match a with
    | ⟨0, _⟩ => exact klhsB_0 _ _
    | ⟨1, _⟩ => exact (klhsB_1 _ _).trans hk)
  have er : Cert.KernelIdeal.dot_S5000x64_S64x32_S5000x32_1_0_0_1_n_n.rhsIdx j ((ValueIdx.contrEquiv1 Cert.KernelIdeal.dot_S5000x64_S64x32_S5000x32_1_0_0_1_n_n 64 rfl rfl).symm k) = krB j k := funext fun a => Fin.ext (by
    match a with
    | ⟨0, _⟩ => exact (krhsB_0 _ _).trans hk
    | ⟨1, _⟩ => exact krhsB_1 _ _)
  rw [el, er]

/-! ## The product [rows, 32] × [32, 64] -/

/-- Row `j 0`, column `k` of the left factor's block. -/
abbrev klC (j : Cert.KernelIdeal.S5000x64.Idx) (k : Fin 32) : Cert.KernelIdeal.S5000x32.Idx := fun a => match a with
  | ⟨0, _⟩ => ⟨(j 0).val, (j 0).isLt⟩
  | ⟨1, _⟩ => ⟨k.val, k.isLt⟩
/-- Row `k`, column `j 1` of the right factor. -/
abbrev krC (j : Cert.KernelIdeal.S5000x64.Idx) (k : Fin 32) : Cert.KernelIdeal.S32x64.Idx := fun a => match a with
  | ⟨0, _⟩ => ⟨k.val, k.isLt⟩
  | ⟨1, _⟩ => ⟨(j 1).val, (j 1).isLt⟩

theorem klhsC_0 (i : Cert.KernelIdeal.S5000x64.Idx) (q : Cert.KernelIdeal.dot_S5000x32_S32x64_S5000x64_1_0_0_1_n_n.contr.Idx) : (Cert.KernelIdeal.dot_S5000x32_S32x64_S5000x64_1_0_0_1_n_n.lhsIdx i q 0).val = (i 0).val := by
  unfold DotDims.lhsIdx
  rw [dif_neg (show ¬(0 : Fin Cert.KernelIdeal.S5000x32.rank) ∈ Cert.KernelIdeal.dot_S5000x32_S32x64_S5000x64_1_0_0_1_n_n.lhsBatch by decide), dif_pos (show (0 : Fin Cert.KernelIdeal.S5000x32.rank) ∈ Cert.KernelIdeal.dot_S5000x32_S32x64_S5000x64_1_0_0_1_n_n.lhsNonContracting by decide)]
  rfl
theorem klhsC_1 (i : Cert.KernelIdeal.S5000x64.Idx) (q : Cert.KernelIdeal.dot_S5000x32_S32x64_S5000x64_1_0_0_1_n_n.contr.Idx) : (Cert.KernelIdeal.dot_S5000x32_S32x64_S5000x64_1_0_0_1_n_n.lhsIdx i q 1).val = (q ⟨0, by decide⟩).val :=
  Cert.KernelIdeal.dot_S5000x32_S32x64_S5000x64_1_0_0_1_n_n.lhsIdx_val_of_single rfl i q
theorem krhsC_0 (i : Cert.KernelIdeal.S5000x64.Idx) (q : Cert.KernelIdeal.dot_S5000x32_S32x64_S5000x64_1_0_0_1_n_n.contr.Idx) : (Cert.KernelIdeal.dot_S5000x32_S32x64_S5000x64_1_0_0_1_n_n.rhsIdx i q 0).val = (q ⟨0, by decide⟩).val :=
  Cert.KernelIdeal.dot_S5000x32_S32x64_S5000x64_1_0_0_1_n_n.rhsIdx_val_of_single rfl i q
theorem krhsC_1 (i : Cert.KernelIdeal.S5000x64.Idx) (q : Cert.KernelIdeal.dot_S5000x32_S32x64_S5000x64_1_0_0_1_n_n.contr.Idx) : (Cert.KernelIdeal.dot_S5000x32_S32x64_S5000x64_1_0_0_1_n_n.rhsIdx i q 1).val = (i 1).val := by
  unfold DotDims.rhsIdx
  rw [dif_neg (show ¬(1 : Fin Cert.KernelIdeal.S32x64.rank) ∈ Cert.KernelIdeal.dot_S5000x32_S32x64_S5000x64_1_0_0_1_n_n.rhsBatch by decide), dif_pos (show (1 : Fin Cert.KernelIdeal.S32x64.rank) ∈ Cert.KernelIdeal.dot_S5000x32_S32x64_S5000x64_1_0_0_1_n_n.rhsNonContracting by decide)]
  rfl

/-- A block's matrix product into the zero accumulator, at an entry: the sum over the contracted axis of the products
    of the row's and the column's entries. -/
theorem mmC_apply (L : FVec Ideal Cert.KernelIdeal.S5000x32 .bf16) (R : FVec Ideal Cert.KernelIdeal.S32x64 .bf16) (j : Cert.KernelIdeal.S5000x64.Idx) :
    matmul Cert.KernelIdeal.dot_S5000x32_S32x64_S5000x64_1_0_0_1_n_n none L R (constant Cert.KernelIdeal.S5000x64 .f32 0x00000000#32) j = ∑ k : Fin 32, L (klC j k) * R (krC j k) := by
  simp only [matmul]
  rw [Ideal.matmul_constant_zero_apply, ← Equiv.sum_comp (ValueIdx.contrEquiv1 Cert.KernelIdeal.dot_S5000x32_S32x64_S5000x64_1_0_0_1_n_n 32 rfl rfl).symm]
  refine Finset.sum_congr rfl fun k _ => ?_
  have hk := ValueIdx.contrEquiv1_symm_val Cert.KernelIdeal.dot_S5000x32_S32x64_S5000x64_1_0_0_1_n_n 32 rfl rfl k
  have el : Cert.KernelIdeal.dot_S5000x32_S32x64_S5000x64_1_0_0_1_n_n.lhsIdx j ((ValueIdx.contrEquiv1 Cert.KernelIdeal.dot_S5000x32_S32x64_S5000x64_1_0_0_1_n_n 32 rfl rfl).symm k) = klC j k := funext fun a => Fin.ext (by
    match a with
    | ⟨0, _⟩ => exact klhsC_0 _ _
    | ⟨1, _⟩ => exact (klhsC_1 _ _).trans hk)
  have er : Cert.KernelIdeal.dot_S5000x32_S32x64_S5000x64_1_0_0_1_n_n.rhsIdx j ((ValueIdx.contrEquiv1 Cert.KernelIdeal.dot_S5000x32_S32x64_S5000x64_1_0_0_1_n_n 32 rfl rfl).symm k) = krC j k := funext fun a => Fin.ext (by
    match a with
    | ⟨0, _⟩ => exact (krhsC_0 _ _).trans hk
    | ⟨1, _⟩ => exact krhsC_1 _ _)
  rw [el, er]

/-! ## The product [rows, 64] × [64, 256] -/

/-- Row `j 0`, column `k` of the left factor's block. -/
abbrev klD (j : Cert.KernelIdeal.S5000x256.Idx) (k : Fin 64) : Cert.KernelIdeal.S5000x64.Idx := fun a => match a with
  | ⟨0, _⟩ => ⟨(j 0).val, (j 0).isLt⟩
  | ⟨1, _⟩ => ⟨k.val, k.isLt⟩
/-- Row `k`, column `j 1` of the right factor. -/
abbrev krD (j : Cert.KernelIdeal.S5000x256.Idx) (k : Fin 64) : Cert.KernelIdeal.S64x256.Idx := fun a => match a with
  | ⟨0, _⟩ => ⟨k.val, k.isLt⟩
  | ⟨1, _⟩ => ⟨(j 1).val, (j 1).isLt⟩

theorem klhsD_0 (i : Cert.KernelIdeal.S5000x256.Idx) (q : Cert.KernelIdeal.dot_S5000x64_S64x256_S5000x256_1_0_0_1_n_n.contr.Idx) : (Cert.KernelIdeal.dot_S5000x64_S64x256_S5000x256_1_0_0_1_n_n.lhsIdx i q 0).val = (i 0).val := by
  unfold DotDims.lhsIdx
  rw [dif_neg (show ¬(0 : Fin Cert.KernelIdeal.S5000x64.rank) ∈ Cert.KernelIdeal.dot_S5000x64_S64x256_S5000x256_1_0_0_1_n_n.lhsBatch by decide), dif_pos (show (0 : Fin Cert.KernelIdeal.S5000x64.rank) ∈ Cert.KernelIdeal.dot_S5000x64_S64x256_S5000x256_1_0_0_1_n_n.lhsNonContracting by decide)]
  rfl
theorem klhsD_1 (i : Cert.KernelIdeal.S5000x256.Idx) (q : Cert.KernelIdeal.dot_S5000x64_S64x256_S5000x256_1_0_0_1_n_n.contr.Idx) : (Cert.KernelIdeal.dot_S5000x64_S64x256_S5000x256_1_0_0_1_n_n.lhsIdx i q 1).val = (q ⟨0, by decide⟩).val :=
  Cert.KernelIdeal.dot_S5000x64_S64x256_S5000x256_1_0_0_1_n_n.lhsIdx_val_of_single rfl i q
theorem krhsD_0 (i : Cert.KernelIdeal.S5000x256.Idx) (q : Cert.KernelIdeal.dot_S5000x64_S64x256_S5000x256_1_0_0_1_n_n.contr.Idx) : (Cert.KernelIdeal.dot_S5000x64_S64x256_S5000x256_1_0_0_1_n_n.rhsIdx i q 0).val = (q ⟨0, by decide⟩).val :=
  Cert.KernelIdeal.dot_S5000x64_S64x256_S5000x256_1_0_0_1_n_n.rhsIdx_val_of_single rfl i q
theorem krhsD_1 (i : Cert.KernelIdeal.S5000x256.Idx) (q : Cert.KernelIdeal.dot_S5000x64_S64x256_S5000x256_1_0_0_1_n_n.contr.Idx) : (Cert.KernelIdeal.dot_S5000x64_S64x256_S5000x256_1_0_0_1_n_n.rhsIdx i q 1).val = (i 1).val := by
  unfold DotDims.rhsIdx
  rw [dif_neg (show ¬(1 : Fin Cert.KernelIdeal.S64x256.rank) ∈ Cert.KernelIdeal.dot_S5000x64_S64x256_S5000x256_1_0_0_1_n_n.rhsBatch by decide), dif_pos (show (1 : Fin Cert.KernelIdeal.S64x256.rank) ∈ Cert.KernelIdeal.dot_S5000x64_S64x256_S5000x256_1_0_0_1_n_n.rhsNonContracting by decide)]
  rfl

/-- A block's matrix product into the zero accumulator, at an entry: the sum over the contracted axis of the products
    of the row's and the column's entries. -/
theorem mmD_apply (L : FVec Ideal Cert.KernelIdeal.S5000x64 .bf16) (R : FVec Ideal Cert.KernelIdeal.S64x256 .bf16) (j : Cert.KernelIdeal.S5000x256.Idx) :
    matmul Cert.KernelIdeal.dot_S5000x64_S64x256_S5000x256_1_0_0_1_n_n none L R (constant Cert.KernelIdeal.S5000x256 .f32 0x00000000#32) j = ∑ k : Fin 64, L (klD j k) * R (krD j k) := by
  simp only [matmul]
  rw [Ideal.matmul_constant_zero_apply, ← Equiv.sum_comp (ValueIdx.contrEquiv1 Cert.KernelIdeal.dot_S5000x64_S64x256_S5000x256_1_0_0_1_n_n 64 rfl rfl).symm]
  refine Finset.sum_congr rfl fun k _ => ?_
  have hk := ValueIdx.contrEquiv1_symm_val Cert.KernelIdeal.dot_S5000x64_S64x256_S5000x256_1_0_0_1_n_n 64 rfl rfl k
  have el : Cert.KernelIdeal.dot_S5000x64_S64x256_S5000x256_1_0_0_1_n_n.lhsIdx j ((ValueIdx.contrEquiv1 Cert.KernelIdeal.dot_S5000x64_S64x256_S5000x256_1_0_0_1_n_n 64 rfl rfl).symm k) = klD j k := funext fun a => Fin.ext (by
    match a with
    | ⟨0, _⟩ => exact klhsD_0 _ _
    | ⟨1, _⟩ => exact (klhsD_1 _ _).trans hk)
  have er : Cert.KernelIdeal.dot_S5000x64_S64x256_S5000x256_1_0_0_1_n_n.rhsIdx j ((ValueIdx.contrEquiv1 Cert.KernelIdeal.dot_S5000x64_S64x256_S5000x256_1_0_0_1_n_n 64 rfl rfl).symm k) = krD j k := funext fun a => Fin.ext (by
    match a with
    | ⟨0, _⟩ => exact (krhsD_0 _ _).trans hk
    | ⟨1, _⟩ => exact krhsD_1 _ _)
  rw [el, er]

/-! ## The product [rows, 32] × [32, 3] -/

/-- Row `j 0`, column `k` of the left factor's block. -/
abbrev klE (j : Cert.KernelIdeal.S5000x3.Idx) (k : Fin 32) : Cert.KernelIdeal.S5000x32.Idx := fun a => match a with
  | ⟨0, _⟩ => ⟨(j 0).val, (j 0).isLt⟩
  | ⟨1, _⟩ => ⟨k.val, k.isLt⟩
/-- Row `k`, column `j 1` of the right factor. -/
abbrev krE (j : Cert.KernelIdeal.S5000x3.Idx) (k : Fin 32) : Cert.KernelIdeal.S32x3.Idx := fun a => match a with
  | ⟨0, _⟩ => ⟨k.val, k.isLt⟩
  | ⟨1, _⟩ => ⟨(j 1).val, (j 1).isLt⟩

theorem klhsE_0 (i : Cert.KernelIdeal.S5000x3.Idx) (q : Cert.KernelIdeal.dot_S5000x32_S32x3_S5000x3_1_0_0_1_n_n.contr.Idx) : (Cert.KernelIdeal.dot_S5000x32_S32x3_S5000x3_1_0_0_1_n_n.lhsIdx i q 0).val = (i 0).val := by
  unfold DotDims.lhsIdx
  rw [dif_neg (show ¬(0 : Fin Cert.KernelIdeal.S5000x32.rank) ∈ Cert.KernelIdeal.dot_S5000x32_S32x3_S5000x3_1_0_0_1_n_n.lhsBatch by decide), dif_pos (show (0 : Fin Cert.KernelIdeal.S5000x32.rank) ∈ Cert.KernelIdeal.dot_S5000x32_S32x3_S5000x3_1_0_0_1_n_n.lhsNonContracting by decide)]
  rfl
theorem klhsE_1 (i : Cert.KernelIdeal.S5000x3.Idx) (q : Cert.KernelIdeal.dot_S5000x32_S32x3_S5000x3_1_0_0_1_n_n.contr.Idx) : (Cert.KernelIdeal.dot_S5000x32_S32x3_S5000x3_1_0_0_1_n_n.lhsIdx i q 1).val = (q ⟨0, by decide⟩).val :=
  Cert.KernelIdeal.dot_S5000x32_S32x3_S5000x3_1_0_0_1_n_n.lhsIdx_val_of_single rfl i q
theorem krhsE_0 (i : Cert.KernelIdeal.S5000x3.Idx) (q : Cert.KernelIdeal.dot_S5000x32_S32x3_S5000x3_1_0_0_1_n_n.contr.Idx) : (Cert.KernelIdeal.dot_S5000x32_S32x3_S5000x3_1_0_0_1_n_n.rhsIdx i q 0).val = (q ⟨0, by decide⟩).val :=
  Cert.KernelIdeal.dot_S5000x32_S32x3_S5000x3_1_0_0_1_n_n.rhsIdx_val_of_single rfl i q
theorem krhsE_1 (i : Cert.KernelIdeal.S5000x3.Idx) (q : Cert.KernelIdeal.dot_S5000x32_S32x3_S5000x3_1_0_0_1_n_n.contr.Idx) : (Cert.KernelIdeal.dot_S5000x32_S32x3_S5000x3_1_0_0_1_n_n.rhsIdx i q 1).val = (i 1).val := by
  unfold DotDims.rhsIdx
  rw [dif_neg (show ¬(1 : Fin Cert.KernelIdeal.S32x3.rank) ∈ Cert.KernelIdeal.dot_S5000x32_S32x3_S5000x3_1_0_0_1_n_n.rhsBatch by decide), dif_pos (show (1 : Fin Cert.KernelIdeal.S32x3.rank) ∈ Cert.KernelIdeal.dot_S5000x32_S32x3_S5000x3_1_0_0_1_n_n.rhsNonContracting by decide)]
  rfl

/-- A block's matrix product into the zero accumulator, at an entry: the sum over the contracted axis of the products
    of the row's and the column's entries. -/
theorem mmE_apply (L : FVec Ideal Cert.KernelIdeal.S5000x32 .bf16) (R : FVec Ideal Cert.KernelIdeal.S32x3 .bf16) (j : Cert.KernelIdeal.S5000x3.Idx) :
    matmul Cert.KernelIdeal.dot_S5000x32_S32x3_S5000x3_1_0_0_1_n_n none L R (constant Cert.KernelIdeal.S5000x3 .f32 0x00000000#32) j = ∑ k : Fin 32, L (klE j k) * R (krE j k) := by
  simp only [matmul]
  rw [Ideal.matmul_constant_zero_apply, ← Equiv.sum_comp (ValueIdx.contrEquiv1 Cert.KernelIdeal.dot_S5000x32_S32x3_S5000x3_1_0_0_1_n_n 32 rfl rfl).symm]
  refine Finset.sum_congr rfl fun k _ => ?_
  have hk := ValueIdx.contrEquiv1_symm_val Cert.KernelIdeal.dot_S5000x32_S32x3_S5000x3_1_0_0_1_n_n 32 rfl rfl k
  have el : Cert.KernelIdeal.dot_S5000x32_S32x3_S5000x3_1_0_0_1_n_n.lhsIdx j ((ValueIdx.contrEquiv1 Cert.KernelIdeal.dot_S5000x32_S32x3_S5000x3_1_0_0_1_n_n 32 rfl rfl).symm k) = klE j k := funext fun a => Fin.ext (by
    match a with
    | ⟨0, _⟩ => exact klhsE_0 _ _
    | ⟨1, _⟩ => exact (klhsE_1 _ _).trans hk)
  have er : Cert.KernelIdeal.dot_S5000x32_S32x3_S5000x3_1_0_0_1_n_n.rhsIdx j ((ValueIdx.contrEquiv1 Cert.KernelIdeal.dot_S5000x32_S32x3_S5000x3_1_0_0_1_n_n 32 rfl rfl).symm k) = krE j k := funext fun a => Fin.ext (by
    match a with
    | ⟨0, _⟩ => exact (krhsE_0 _ _).trans hk
    | ⟨1, _⟩ => exact krhsE_1 _ _)
  rw [el, er]

end Cert.Bridge

end
-- ==== Proof.DotsH.lean ====
/-
  Dense layers, the reference's side. The reference computes each dense layer as one matrix product of the whole
  arrays, [50000, K] × [K, N]. Over the extended reals its entry (r, c) is the sum over k of left(r, k) · right(k, c),
  for any two operand arrays: stated here for each of the five products, the contracted axis re-indexed by its one
  coordinate.
-/
import proofs.«132482_j52905407152187_1_alg».proof.Proof.RefReadP
import Idealize.ShloMosaic.Lib.ValueIdx
import Idealize.ShloMosaic.PureOps.Ideal.Laws

noncomputable section

open scoped BigOperators

namespace Cert.Bridge

open Idealize.ShloMosaic Idealize.ShloMosaic.TcCoe Idealize.SL.Sem

/-! ## The product [50000, 256] × [256, 64] on the host -/

/-- The whole arrays' product on the host, at an entry: the same sum over the contracted axis. -/
theorem hdA_apply (A : FVec Ideal Cert.ReferenceIdeal.S50000x256 .f32) (B : FVec Ideal Cert.ReferenceIdeal.S256x64 .f32) (i : Cert.ReferenceIdeal.S50000x64.Idx) :
    Host.dotGeneral (F := Ideal) Cert.ReferenceIdeal.dot_S50000x256_S256x64_S50000x64_1_0_0_1_n_n none A B i = ∑ k : Fin 256, A (Cert.ReferenceIdeal.ReadP.lidx_main_v30 i k) * B (Cert.ReferenceIdeal.ReadP.ridx_main_v30 i k) := by
  simp only [Host.dotGeneral]
  rw [Ideal.dotGeneral_apply, ← Equiv.sum_comp (ValueIdx.contrEquiv1 Cert.ReferenceIdeal.dot_S50000x256_S256x64_S50000x64_1_0_0_1_n_n 256 rfl rfl).symm]
  refine Finset.sum_congr rfl fun k _ => ?_
  have hk := ValueIdx.contrEquiv1_symm_val Cert.ReferenceIdeal.dot_S50000x256_S256x64_S50000x64_1_0_0_1_n_n 256 rfl rfl k
  have el : Cert.ReferenceIdeal.dot_S50000x256_S256x64_S50000x64_1_0_0_1_n_n.lhsIdx i ((ValueIdx.contrEquiv1 Cert.ReferenceIdeal.dot_S50000x256_S256x64_S50000x64_1_0_0_1_n_n 256 rfl rfl).symm k) = Cert.ReferenceIdeal.ReadP.lidx_main_v30 i k := funext fun a => Fin.ext (by
    match a with
    | ⟨0, _⟩ => exact Cert.ReferenceIdeal.ReadP.lhs_main_v30_0 _ _
    | ⟨1, _⟩ => exact (Cert.ReferenceIdeal.ReadP.lhs_main_v30_1 _ _).trans hk)
  have er : Cert.ReferenceIdeal.dot_S50000x256_S256x64_S50000x64_1_0_0_1_n_n.rhsIdx i ((ValueIdx.contrEquiv1 Cert.ReferenceIdeal.dot_S50000x256_S256x64_S50000x64_1_0_0_1_n_n 256 rfl rfl).symm k) = Cert.ReferenceIdeal.ReadP.ridx_main_v30 i k := funext fun a => Fin.ext (by
    match a with
    | ⟨0, _⟩ => exact (Cert.ReferenceIdeal.ReadP.rhs_main_v30_0 _ _).trans hk
    | ⟨1, _⟩ => exact Cert.ReferenceIdeal.ReadP.rhs_main_v30_1 _ _)
  rw [el, er]

/-! ## The product [50000, 64] × [64, 32] on the host -/

/-- The whole arrays' product on the host, at an entry: the same sum over the contracted axis. -/
theorem hdB_apply (A : FVec Ideal Cert.ReferenceIdeal.S50000x64 .f32) (B : FVec Ideal Cert.ReferenceIdeal.S64x32 .f32) (i : Cert.ReferenceIdeal.S50000x32.Idx) :
    Host.dotGeneral (F := Ideal) Cert.ReferenceIdeal.dot_S50000x64_S64x32_S50000x32_1_0_0_1_n_n none A B i = ∑ k : Fin 64, A (Cert.ReferenceIdeal.ReadP.lidx_main_v48 i k) * B (Cert.ReferenceIdeal.ReadP.ridx_main_v48 i k) := by
  simp only [Host.dotGeneral]
  rw [Ideal.dotGeneral_apply, ← Equiv.sum_comp (ValueIdx.contrEquiv1 Cert.ReferenceIdeal.dot_S50000x64_S64x32_S50000x32_1_0_0_1_n_n 64 rfl rfl).symm]
  refine Finset.sum_congr rfl fun k _ => ?_
  have hk := ValueIdx.contrEquiv1_symm_val Cert.ReferenceIdeal.dot_S50000x64_S64x32_S50000x32_1_0_0_1_n_n 64 rfl rfl k
  have el : Cert.ReferenceIdeal.dot_S50000x64_S64x32_S50000x32_1_0_0_1_n_n.lhsIdx i ((ValueIdx.contrEquiv1 Cert.ReferenceIdeal.dot_S50000x64_S64x32_S50000x32_1_0_0_1_n_n 64 rfl rfl).symm k) = Cert.ReferenceIdeal.ReadP.lidx_main_v48 i k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S50000x64_S64x32_S50000x32_1_0_0_1_n_n.rhsIdx i ((ValueIdx.contrEquiv1 Cert.ReferenceIdeal.dot_S50000x64_S64x32_S50000x32_1_0_0_1_n_n 64 rfl rfl).symm k) = Cert.ReferenceIdeal.ReadP.ridx_main_v48 i k := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

/-! ## The product [50000, 32] × [32, 64] on the host -/

/-- The whole arrays' product on the host, at an entry: the same sum over the contracted axis. -/
theorem hdC_apply (A : FVec Ideal Cert.ReferenceIdeal.S50000x32 .f32) (B : FVec Ideal Cert.ReferenceIdeal.S32x64 .f32) (i : Cert.ReferenceIdeal.S50000x64.Idx) :
    Host.dotGeneral (F := Ideal) Cert.ReferenceIdeal.dot_S50000x32_S32x64_S50000x64_1_0_0_1_n_n none A B i = ∑ k : Fin 32, A (Cert.ReferenceIdeal.ReadP.lidx_main_v52 i k) * B (Cert.ReferenceIdeal.ReadP.ridx_main_v52 i k) := by
  simp only [Host.dotGeneral]
  rw [Ideal.dotGeneral_apply, ← Equiv.sum_comp (ValueIdx.contrEquiv1 Cert.ReferenceIdeal.dot_S50000x32_S32x64_S50000x64_1_0_0_1_n_n 32 rfl rfl).symm]
  refine Finset.sum_congr rfl fun k _ => ?_
  have hk := ValueIdx.contrEquiv1_symm_val Cert.ReferenceIdeal.dot_S50000x32_S32x64_S50000x64_1_0_0_1_n_n 32 rfl rfl k
  have el : Cert.ReferenceIdeal.dot_S50000x32_S32x64_S50000x64_1_0_0_1_n_n.lhsIdx i ((ValueIdx.contrEquiv1 Cert.ReferenceIdeal.dot_S50000x32_S32x64_S50000x64_1_0_0_1_n_n 32 rfl rfl).symm k) = Cert.ReferenceIdeal.ReadP.lidx_main_v52 i k := funext fun a => Fin.ext (by
    match a with
    | ⟨0, _⟩ => exact Cert.ReferenceIdeal.ReadP.lhs_main_v52_0 _ _
    | ⟨1, _⟩ => exact (Cert.ReferenceIdeal.ReadP.lhs_main_v52_1 _ _).trans hk)
  have er : Cert.ReferenceIdeal.dot_S50000x32_S32x64_S50000x64_1_0_0_1_n_n.rhsIdx i ((ValueIdx.contrEquiv1 Cert.ReferenceIdeal.dot_S50000x32_S32x64_S50000x64_1_0_0_1_n_n 32 rfl rfl).symm k) = Cert.ReferenceIdeal.ReadP.ridx_main_v52 i k := funext fun a => Fin.ext (by
    match a with
    | ⟨0, _⟩ => exact (Cert.ReferenceIdeal.ReadP.rhs_main_v52_0 _ _).trans hk
    | ⟨1, _⟩ => exact Cert.ReferenceIdeal.ReadP.rhs_main_v52_1 _ _)
  rw [el, er]

/-! ## The product [50000, 64] × [64, 256] on the host -/

/-- The whole arrays' product on the host, at an entry: the same sum over the contracted axis. -/
theorem hdD_apply (A : FVec Ideal Cert.ReferenceIdeal.S50000x64 .f32) (B : FVec Ideal Cert.ReferenceIdeal.S64x256 .f32) (i : Cert.ReferenceIdeal.S50000x256.Idx) :
    Host.dotGeneral (F := Ideal) Cert.ReferenceIdeal.dot_S50000x64_S64x256_S50000x256_1_0_0_1_n_n none A B i = ∑ k : Fin 64, A (Cert.ReferenceIdeal.ReadP.lidx_main_v83 i k) * B (Cert.ReferenceIdeal.ReadP.ridx_main_v83 i k) := by
  simp only [Host.dotGeneral]
  rw [Ideal.dotGeneral_apply, ← Equiv.sum_comp (ValueIdx.contrEquiv1 Cert.ReferenceIdeal.dot_S50000x64_S64x256_S50000x256_1_0_0_1_n_n 64 rfl rfl).symm]
  refine Finset.sum_congr rfl fun k _ => ?_
  have hk := ValueIdx.contrEquiv1_symm_val Cert.ReferenceIdeal.dot_S50000x64_S64x256_S50000x256_1_0_0_1_n_n 64 rfl rfl k
  have el : Cert.ReferenceIdeal.dot_S50000x64_S64x256_S50000x256_1_0_0_1_n_n.lhsIdx i ((ValueIdx.contrEquiv1 Cert.ReferenceIdeal.dot_S50000x64_S64x256_S50000x256_1_0_0_1_n_n 64 rfl rfl).symm k) = Cert.ReferenceIdeal.ReadP.lidx_main_v83 i k := funext fun a => Fin.ext (by
    match a with
    | ⟨0, _⟩ => exact Cert.ReferenceIdeal.ReadP.lhs_main_v83_0 _ _
    | ⟨1, _⟩ => exact (Cert.ReferenceIdeal.ReadP.lhs_main_v83_1 _ _).trans hk)
  have er : Cert.ReferenceIdeal.dot_S50000x64_S64x256_S50000x256_1_0_0_1_n_n.rhsIdx i ((ValueIdx.contrEquiv1 Cert.ReferenceIdeal.dot_S50000x64_S64x256_S50000x256_1_0_0_1_n_n 64 rfl rfl).symm k) = Cert.ReferenceIdeal.ReadP.ridx_main_v83 i k := funext fun a => Fin.ext (by
    match a with
    | ⟨0, _⟩ => exact (Cert.ReferenceIdeal.ReadP.rhs_main_v83_0 _ _).trans hk
    | ⟨1, _⟩ => exact Cert.ReferenceIdeal.ReadP.rhs_main_v83_1 _ _)
  rw [el, er]

/-! ## The product [50000, 32] × [32, 3] on the host -/

/-- The whole arrays' product on the host, at an entry: the same sum over the contracted axis. -/
theorem hdE_apply (A : FVec Ideal Cert.ReferenceIdeal.S50000x32 .f32) (B : FVec Ideal Cert.ReferenceIdeal.S32x3 .f32) (i : Cert.ReferenceIdeal.S50000x3.Idx) :
    Host.dotGeneral (F := Ideal) Cert.ReferenceIdeal.dot_S50000x32_S32x3_S50000x3_1_0_0_1_n_n none A B i = ∑ k : Fin 32, A (Cert.ReferenceIdeal.ReadP.lidx_main_v100 i k) * B (Cert.ReferenceIdeal.ReadP.ridx_main_v100 i k) := by
  simp only [Host.dotGeneral]
  rw [Ideal.dotGeneral_apply, ← Equiv.sum_comp (ValueIdx.contrEquiv1 Cert.ReferenceIdeal.dot_S50000x32_S32x3_S50000x3_1_0_0_1_n_n 32 rfl rfl).symm]
  refine Finset.sum_congr rfl fun k _ => ?_
  have hk := ValueIdx.contrEquiv1_symm_val Cert.ReferenceIdeal.dot_S50000x32_S32x3_S50000x3_1_0_0_1_n_n 32 rfl rfl k
  have el : Cert.ReferenceIdeal.dot_S50000x32_S32x3_S50000x3_1_0_0_1_n_n.lhsIdx i ((ValueIdx.contrEquiv1 Cert.ReferenceIdeal.dot_S50000x32_S32x3_S50000x3_1_0_0_1_n_n 32 rfl rfl).symm k) = Cert.ReferenceIdeal.ReadP.lidx_main_v100 i k := funext fun a => Fin.ext (by
    match a with
    | ⟨0, _⟩ => exact Cert.ReferenceIdeal.ReadP.lhs_main_v100_0 _ _
    | ⟨1, _⟩ => exact (Cert.ReferenceIdeal.ReadP.lhs_main_v100_1 _ _).trans hk)
  have er : Cert.ReferenceIdeal.dot_S50000x32_S32x3_S50000x3_1_0_0_1_n_n.rhsIdx i ((ValueIdx.contrEquiv1 Cert.ReferenceIdeal.dot_S50000x32_S32x3_S50000x3_1_0_0_1_n_n 32 rfl rfl).symm k) = Cert.ReferenceIdeal.ReadP.ridx_main_v100 i k := funext fun a => Fin.ext (by
    match a with
    | ⟨0, _⟩ => exact (Cert.ReferenceIdeal.ReadP.rhs_main_v100_0 _ _).trans hk
    | ⟨1, _⟩ => exact Cert.ReferenceIdeal.ReadP.rhs_main_v100_1 _ _)
  rw [el, er]

end Cert.Bridge

end
-- ==== Proof.Region0.lean ====
/-
  The encoder's first dense product, block by block. The pallas_call computes x · W one block of 5000 rows per grid
  point: point t loads rows 5000 t … 5000 t + 4999 of x and the whole of W, and writes their product to the same rows
  of the result. The ten blocks tile the 50000 rows, so the result array ends holding the product of the whole arrays,
  entry by entry the sum over k of x(r, k) · W(k, c).
-/
import proofs.«132482_j52905407152187_1_alg».proof.Proof.Gen.KernelIdeal.Frame
import proofs.«132482_j52905407152187_1_alg».proof.Proof.DotsK
import proofs.«132482_j52905407152187_1_alg».proof.Proof.DotsH
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: point `t` takes row block `t` of the left factor and of the result, and block
    (0, 0) — the whole — of the right factor. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the result array ends holding, as one function of the arrays the region is entered with. -/
def G : Buf (Elt Ideal) (((cfg0).win 2).arr.view.loc (c.tc : Thread nD τ)) :=
  Host.dotGeneral (F := Ideal) (φ₁ := .f32) (φ₂ := .f32) Cert.ReferenceIdeal.dot_S50000x256_S256x64_S50000x64_1_0_0_1_n_n none (V c main_arg0 : FVec Ideal Cert.ReferenceIdeal.S50000x256 .f32) (V c main_arg3 : FVec Ideal Cert.ReferenceIdeal.S256x64 .f32)

/-- The left factor's block at point `t` is rows `5000 t …` of the array. -/
theorem blockL (t : Fin cfg0.N) (x : S5000x256.Idx) (i : S50000x256.Idx)
    (h0 : (i 0).val = 5000 * t.val + (x 0).val) (h1 : (i 1).val = (x 1).val) :
    (iblk0 V c 0 t : Vec Ideal S5000x256 .f32) x = (V c main_arg0 : S50000x256.Idx → Elt Ideal .f32) i := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, h0]; omega
  | ⟨1, _⟩ => show win0_0.index t 1 * 256 + 1 * (x 1).val = (i 1).val; rw [e1, h1]; omega

/-- The right factor's block at every point is the whole array. -/
theorem blockR (t : Fin cfg0.N) (x : S256x64.Idx) (i : S256x64.Idx)
    (h0 : (i 0).val = (x 0).val) (h1 : (i 1).val = (x 1).val) :
    (iblk0 V c 1 t : Vec Ideal S256x64 .f32) x = (V c main_arg3 : S256x64.Idx → Elt Ideal .f32) i := by
  obtain ⟨-, -, e0, e1, -, -⟩ := idx_facts t
  unfold iblk0
  rw [View.read_apply]
  show V c main_arg3 _ = V c main_arg3 _
  congr 1
  funext a
  apply Fin.ext
  match a with
  | ⟨0, _⟩ => show win0_1.index t 0 * 256 + 1 * (x 0).val = (i 0).val; rw [e0, h0]; omega
  | ⟨1, _⟩ => show win0_1.index t 1 * 64 + 1 * (x 1).val = (i 1).val; rw [e1, h1]; omega

/-- Where entry `j` of the result's block at point `t` sits in the array. -/
theorem embO (t : Fin cfg0.N) (j : S5000x64.Idx) :
    ((((cfg0).win 2).blk t).view.emb j 0).val = 5000 * t.val + (j 0).val
    ∧ ((((cfg0).win 2).blk t).view.emb j 1).val = (j 1).val := by
  obtain ⟨-, -, -, -, e0, e1⟩ := idx_facts t
  constructor
  · show win0_2.index t 0 * 5000 + 1 * (j 0).val = _; rw [e0]; omega
  · show win0_2.index t 1 * 64 + 1 * (j 1).val = _; rw [e1]; omega

/-- The body's result at an entry of the block. -/
theorem payload (X : Vec Ideal S5000x256 .f32) (W : Vec Ideal S256x64 .f32) (j : S5000x64.Idx) :
    k0_pay1 (F := Ideal) X W j = ∑ k : Fin 256, X (Cert.Bridge.klA j k) * W (Cert.Bridge.krA j k) := by
  unfold k0_pay1
  rw [Cert.Bridge.mmA_apply]
  rfl

/-- What point `t` writes back is block `t` of `G`. -/
theorem flushed_eq (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  funext j
  obtain ⟨o0, o1⟩ := embO t j
  show k0_pay1 (iblk0 V c 0 t) (iblk0 V c 1 t) j = G V c (((cfg0.win 2).blk t).view.emb j)
  refine (payload (iblk0 V c 0 t) (iblk0 V c 1 t) j).trans ?_
  unfold G
  rw [Cert.Bridge.hdA_apply]
  refine Finset.sum_congr rfl fun k _ => ?_
  rw [blockL V c t (Cert.Bridge.klA j k) (Cert.ReferenceIdeal.ReadP.lidx_main_v30 (((cfg0.win 2).blk t).view.emb j) k) o0 rfl,
    blockR V c t (Cert.Bridge.krA j k) (Cert.ReferenceIdeal.ReadP.ridx_main_v30 (((cfg0.win 2).blk t).view.emb j) k) rfl o1]

/-- An index of the result array is in point `t`'s block iff each coordinate is in the block's range. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row `r` lies in the block of point `r / 5000`: the ten blocks tile the array. -/
theorem cover (i : S50000x64.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 64 := (i 1).isLt
  refine ⟨⟨(i 0).val / 5000, by rw [hN]; omega⟩, flush0_2 _, ?_⟩
  rw [mem_blk]
  obtain ⟨-, -, -, -, e0, e1⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e0]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e1]; omega

/-- The result array after the region: `G` of the arrays it was entered with. -/
theorem final : (dat0 V c).arrAt 2 cfg0.N = G V c :=
  (dat0 V c).arrAt_eq_of_cover 2 (G V c) (fun t _ => flushed_eq V c t) (cover)

end Cert.KernelIdeal.Region0

end
-- ==== Proof.Region1.lean ====
/-
  The first bias layer, block by block. The pallas_call computes max(x + b, 0) one block of 5000 rows per grid point:
  point t loads rows 5000 t … 5000 t + 4999 of x and the whole bias row b, and writes max(x(r, n) + b(0, n), 0) to the
  same rows of the result. The ten blocks tile the 50000 rows, so the result array ends holding max(x(r, n) + b(0, n), 0)
  at every entry (r, n) of the whole arrays.
-/
import proofs.«132482_j52905407152187_1_alg».proof.Proof.Gen.KernelIdeal.Frame
import proofs.«132482_j52905407152187_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: point `t` takes row block `t` of the summand and of the result, and block
    (0, 0) — the whole — of the bias row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The summand array and the bias row as the region finds them. -/
abbrev arrX : Vec Ideal S50000x64 .f32 := V c main_v43
abbrev arrB : Vec Ideal S1x64 .f32 := V c main_v44

/-- The whole-array value the result ends holding. -/
def G : Buf (Elt Ideal) (((cfg1).win 2).arr.view.loc (c.tc : Thread nD τ)) :=
    maximumf (addf (V c main_v43) (broadcastInDim Cert.ReferenceIdeal.S50000x64 ![0, 1] Cert.ReferenceIdeal.Gen.bcast_S1x64_S50000x64_0_1 (V c main_v44)))
      (broadcastInDim Cert.ReferenceIdeal.S50000x64 ![] Cert.ReferenceIdeal.Gen.bcast_S_S50000x64 (constant (F := Ideal) Cert.ReferenceIdeal.S_ .f32 0x00000000#32))

/-- The bias row's index under column `n`. -/
def rowIdx (n : Fin 64) : S1x64.Idx := fun a => match a with
  | ⟨0, _⟩ => ⟨0, Nat.one_pos⟩
  | ⟨1, _⟩ => ⟨n.val, n.isLt⟩

/-- The whole-array value at an entry: the larger of zero and the summand's entry plus the bias under its column. -/
theorem G_apply (i : S50000x64.Idx) :
    G V c i = max (arrX V c i + arrB V c (rowIdx (i 1))) (Ideal.ofBits .f32 0x00000000#32) := by
  unfold G
  rw [maximumf_apply, addf_apply]
  rw [broadcastInDim_apply _ Cert.ReferenceIdeal.Gen.bcast_S1x64_S50000x64_0_1 _ i (rowIdx (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  rw [broadcastInDim_apply _ Cert.ReferenceIdeal.Gen.bcast_S_S50000x64 _ i (fun a => a.elim0) (fun a => a.elim0)]
  rfl

/-- The summand's block at point `t` is rows `5000 t …` of the array. -/
theorem blockX (t : Fin cfg1.N) (x : S5000x64.Idx) (i : S50000x64.Idx)
    (h0 : (i 0).val = 5000 * t.val + (x 0).val) (h1 : (i 1).val = (x 1).val) :
    (iblk1 V c 0 t : Vec Ideal S5000x64 .f32) x = arrX V c i := by
  obtain ⟨e0, e1, -, -, -, -⟩ := idx_facts t
  unfold iblk1
  rw [View.read_apply]
  show V c main_v43 _ = V c main_v43 _
  congr 1
  funext a
  apply Fin.ext
  match a with
  | ⟨0, _⟩ => show win1_0.index t 0 * 5000 + 1 * (x 0).val = (i 0).val; rw [e0, h0]; omega
  | ⟨1, _⟩ => show win1_0.index t 1 * 64 + 1 * (x 1).val = (i 1).val; rw [e1, h1]; omega

/-- The bias row's block at every point is the whole row. -/
theorem blockB (t : Fin cfg1.N) (x : S1x64.Idx) (i : S1x64.Idx)
    (h0 : (i 0).val = (x 0).val) (h1 : (i 1).val = (x 1).val) :
    (iblk1 V c 1 t : Vec Ideal S1x64 .f32) x = arrB V c i := by
  obtain ⟨-, -, e0, e1, -, -⟩ := idx_facts t
  unfold iblk1
  rw [View.read_apply]
  show V c main_v44 _ = V c main_v44 _
  congr 1
  funext a
  apply Fin.ext
  match a with
  | ⟨0, _⟩ => show win1_1.index t 0 * 1 + 1 * (x 0).val = (i 0).val; rw [e0, h0]; omega
  | ⟨1, _⟩ => show win1_1.index t 1 * 64 + 1 * (x 1).val = (i 1).val; rw [e1, h1]; omega

/-- Where entry `j` of the result's block at point `t` sits in the array. -/
theorem embO (t : Fin cfg1.N) (j : S5000x64.Idx) :
    (((cfg1.win 2).blk t).view.emb j 0).val = 5000 * t.val + (j 0).val
    ∧ (((cfg1.win 2).blk t).view.emb j 1).val = (j 1).val := by
  obtain ⟨-, -, -, -, e0, e1⟩ := idx_facts t
  constructor
  · show win1_2.index t 0 * 5000 + 1 * (j 0).val = _; rw [e0]; omega
  · show win1_2.index t 1 * 64 + 1 * (j 1).val = _; rw [e1]; omega

/-- The body's value at an entry of the block: the larger of zero and the summand's entry plus the bias under its column. -/
theorem payload (X : Vec Ideal S5000x64 .f32) (B : Vec Ideal S1x64 .f32) (j : S5000x64.Idx) :
    k1_pay1 (F := Ideal) X B j = max (X j + B (rowIdx (j 1))) (Ideal.ofBits .f32 0x00000000#32) := by
  unfold k1_pay1
  show max (shapeCast S5000x64 X shapeCasts_S5000x64_S5000x64 j + broadcastTo S5000x64 (shapeCast S1x64 B shapeCasts_S1x64_S1x64) broadcasts_S1x64_S5000x64 j) _ = _
  rw [shapeCast_self, shapeCast_self]
  rw [broadcastTo_apply B broadcasts_S1x64_S5000x64 j (rowIdx (j 1)) (fun a => match a with
    | ⟨0, _⟩ => by show 0 = if (1 : Nat) = 1 then 0 else _; rw [if_pos rfl]
    | ⟨1, _⟩ => by show (j 1).val = if (64 : Nat) = 1 then 0 else _; rw [if_neg (by decide)]; rfl)]
  rfl

/-- What point `t` writes back is block `t` of the whole-array value. -/
theorem flushed_eq (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  funext j
  obtain ⟨o0, o1⟩ := embO t j
  show k1_pay1 (iblk1 V c 0 t) (iblk1 V c 1 t) j = G V c (((cfg1.win 2).blk t).view.emb j)
  refine (payload (iblk1 V c 0 t) (iblk1 V c 1 t) j).trans ?_
  rw [G_apply, blockX V c t j (((cfg1.win 2).blk t).view.emb j) o0 o1,
    blockB V c t (rowIdx (j 1)) (rowIdx ((((cfg1.win 2).blk t).view.emb j) 1)) rfl o1]

/-- An index of the result array is in point `t`'s block iff each coordinate is in the block's range. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Row `r` lies in the block of point `r / 5000`: the ten blocks tile the array. -/
theorem cover (i : S50000x64.Idx) : ∃ t : Fin cfg1.N, (cfg1.win 2).flush t = true ∧ i ∈ ((cfg1.win 2).blk t).view.set := by
  have hN : cfg1.N = 10 := N_1
  have hi0 : (i 0).val < 50000 := (i 0).isLt
  have hi1 : (i 1).val < 64 := (i 1).isLt
  refine ⟨⟨(i 0).val / 5000, by rw [hN]; omega⟩, flush1_2 _, ?_⟩
  rw [mem_blk]
  obtain ⟨-, -, -, -, e0, e1⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e0]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e1]; omega

/-- The result array after the region: the larger of zero and the whole summand plus the bias row, entry by entry. -/
theorem final : (dat1 V c).arrAt 2 cfg1.N = G V c :=
  (dat1 V c).arrAt_eq_of_cover 2 (G V c) (fun t _ => flushed_eq V c t) (cover)

end Cert.KernelIdeal.Region1

end
-- ==== Proof.Region2.lean ====
/-
  The latent projection z = H · W + b, block by block. Point t loads rows 5000 t … 5000 t + 4999 of H, the whole of W
  and the bias row, and writes the rows' products plus the bias to the same rows of the result. The ten blocks tile the
  50000 rows, so the result array ends holding, entry by entry, the sum over k of H(r, k) · W(k, c), plus b(c).
-/
import proofs.«132482_j52905407152187_1_alg».proof.Proof.Gen.KernelIdeal.Frame
import proofs.«132482_j52905407152187_1_alg».proof.Proof.DotsK
import proofs.«132482_j52905407152187_1_alg».proof.Proof.DotsH
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Idealize.ShloMosaic Idealize.ShloMosaic.TcCoe Idealize.SL.Sem Cert.KernelIdeal Cert.KernelIdeal.Gen
open Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: point `t` takes row block `t` of the left factor and of the result, and block
    (0, 0) — the whole — of the right factor and of the bias row. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the result array ends holding, as one function of the arrays the region is entered with. -/
def G : Buf (Elt Ideal) (((cfg2).win 3).arr.view.loc (c.tc : Thread nD τ)) :=
  addf (Host.dotGeneral (F := Ideal) (φ₁ := .f32) (φ₂ := .f32) Cert.ReferenceIdeal.dot_S50000x64_S64x32_S50000x32_1_0_0_1_n_n none (V c main_v45 : FVec Ideal Cert.ReferenceIdeal.S50000x64 .f32) (V c main_arg5 : FVec Ideal Cert.ReferenceIdeal.S64x32 .f32)) (broadcastInDim Cert.ReferenceIdeal.S50000x32 ![0, 1] Cert.ReferenceIdeal.Gen.bcast_S1x32_S50000x32_0_1 (V c main_v46))

/-- The left factor's block at point `t` is rows `5000 t …` of the array. -/
theorem blockL (t : Fin cfg2.N) (x : S5000x64.Idx) (i : S50000x64.Idx)
    (h0 : (i 0).val = 5000 * t.val + (x 0).val) (h1 : (i 1).val = (x 1).val) :
    (iblk2 V c 0 t : Vec Ideal S5000x64 .f32) x = (V c main_v45 : S50000x64.Idx → Elt Ideal .f32) i := by
  obtain ⟨e0, e1, -, -, -, -, -, -⟩ := idx_facts t
  unfold iblk2
  rw [View.read_apply]
  show V c main_v45 _ = V c main_v45 _
  congr 1
  funext a
  apply Fin.ext
  match a with
  | ⟨0, _⟩ => show win2_0.index t 0 * 5000 + 1 * (x 0).val = (i 0).val; rw [e0, h0]; omega
  | ⟨1, _⟩ => show win2_0.index t 1 * 64 + 1 * (x 1).val = (i 1).val; rw [e1, h1]; omega

/-- The right factor's block at every point is the whole array. -/
theorem blockR (t : Fin cfg2.N) (x : S64x32.Idx) (i : S64x32.Idx)
    (h0 : (i 0).val = (x 0).val) (h1 : (i 1).val = (x 1).val) :
    (iblk2 V c 1 t : Vec Ideal S64x32 .f32) x = (V c main_arg5 : S64x32.Idx → Elt Ideal .f32) i := by
  obtain ⟨-, -, e0, e1, -, -, -, -⟩ := idx_facts t
  unfold iblk2
  rw [View.read_apply]
  show V c main_arg5 _ = V c main_arg5 _
  congr 1
  funext a
  apply Fin.ext
  match a with
  | ⟨0, _⟩ => show win2_1.index t 0 * 64 + 1 * (x 0).val = (i 0).val; rw [e0, h0]; omega
  | ⟨1, _⟩ => show win2_1.index t 1 * 32 + 1 * (x 1).val = (i 1).val; rw [e1, h1]; omega

/-- The bias row's block at every point is the whole row. -/
theorem blockB (t : Fin cfg2.N) (x : S1x32.Idx) (i : S1x32.Idx)
    (h0 : (i 0).val = (x 0).val) (h1 : (i 1).val = (x 1).val) :
    (iblk2 V c 2 t : Vec Ideal S1x32 .f32) x = (V c main_v46 : S1x32.Idx → Elt Ideal .f32) i := by
  obtain ⟨-, -, -, -, e0, e1, -, -⟩ := idx_facts t
  unfold iblk2
  rw [View.read_apply]
  show V c main_v46 _ = V c main_v46 _
  congr 1
  funext a
  apply Fin.ext
  match a with
  | ⟨0, _⟩ => show win2_2.index t 0 * 1 + 1 * (x 0).val = (i 0).val; rw [e0, h0]; omega
  | ⟨1, _⟩ => show win2_2.index t 1 * 32 + 1 * (x 1).val = (i 1).val; rw [e1, h1]; omega

/-- The one row of a [1, 32] array, at the column of `j`. -/
abbrev row0 (j : S5000x32.Idx) : S1x32.Idx := fun a => match a with
  | ⟨0, _⟩ => ⟨0, Nat.one_pos⟩
  | ⟨1, _⟩ => ⟨(j 1).val, (j 1).isLt⟩

/-- Where entry `j` of the result's block at point `t` sits in the array. -/
theorem embO (t : Fin cfg2.N) (j : S5000x32.Idx) :
    ((((cfg2).win 3).blk t).view.emb j 0).val = 5000 * t.val + (j 0).val
    ∧ ((((cfg2).win 3).blk t).view.emb j 1).val = (j 1).val := by
  obtain ⟨-, -, -, -, -, -, e0, e1⟩ := idx_facts t
  constructor
  · show win2_3.index t 0 * 5000 + 1 * (j 0).val = _; rw [e0]; omega
  · show win2_3.index t 1 * 32 + 1 * (j 1).val = _; rw [e1]; omega

/-- The body's broadcast of the bias row, at an entry. -/
theorem bias_at (Bv : Vec Ideal S1x32 .f32) (j : S5000x32.Idx) :
    broadcastTo S5000x32 Bv broadcasts_S1x32_S5000x32 j = Bv (row0 j) :=
  broadcastTo_apply Bv broadcasts_S1x32_S5000x32 j (row0 j) (fun a => match a with
    | ⟨0, _⟩ => by show 0 = if (1 : Nat) = 1 then 0 else _; rw [if_pos rfl]
    | ⟨1, _⟩ => by show (j 1).val = if (32 : Nat) = 1 then 0 else (j 1).val; rw [if_neg (by decide)])

/-- The one row of a [1, 32] array, at the column of the array index `i`. -/
abbrev hrow (i : Cert.ReferenceIdeal.S50000x32.Idx) : Cert.ReferenceIdeal.S1x32.Idx := fun a => match a with
  | ⟨0, _⟩ => ⟨0, Nat.one_pos⟩
  | ⟨1, _⟩ => ⟨(i 1).val, (i 1).isLt⟩

/-- The reference's broadcast of the bias row over the 50000 rows, at an entry. -/
theorem hrow_apply (y : (⟨Cert.ReferenceIdeal.S1x32, .f32⟩ : BufTy).Contents (Elt Ideal)) (i : Cert.ReferenceIdeal.S50000x32.Idx) :
    broadcastInDim Cert.ReferenceIdeal.S50000x32 ![0, 1] Cert.ReferenceIdeal.Gen.bcast_S1x32_S50000x32_0_1 y i = y (hrow i) :=
  broadcastInDim_apply _ Cert.ReferenceIdeal.Gen.bcast_S1x32_S50000x32_0_1 y i (hrow i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

/-- The body's result at an entry of the block. -/
theorem payload (X : Vec Ideal S5000x64 .f32) (W : Vec Ideal S64x32 .f32) (Bv : Vec Ideal S1x32 .f32) (j : S5000x32.Idx) :
    k2_pay1 (F := Ideal) X W Bv j = (∑ k : Fin 64, X (Cert.Bridge.klB j k) * W (Cert.Bridge.krB j k)) + Bv (row0 j) := by
  unfold k2_pay1
  rw [shapeCast_self, shapeCast_self, addf_apply, Cert.Bridge.mmB_apply, bias_at]
  rfl

/-- What point `t` writes back is block `t` of `G`. -/
theorem flushed_eq (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x32) hz, View.ld_unit_zero (S := S1x32) hz]
  funext j
  obtain ⟨o0, o1⟩ := embO t j
  show k2_pay1 (iblk2 V c 0 t) (iblk2 V c 1 t) (iblk2 V c 2 t) j = G V c (((cfg2.win 3).blk t).view.emb j)
  refine (payload (iblk2 V c 0 t) (iblk2 V c 1 t) (iblk2 V c 2 t) j).trans ?_
  unfold G
  rw [addf_apply, Cert.Bridge.hdB_apply, hrow_apply]
  refine congrArg₂ (· + ·) ?_ ?_
  · refine Finset.sum_congr rfl fun k _ => ?_
    rw [blockL V c t (Cert.Bridge.klB j k) (Cert.ReferenceIdeal.ReadP.lidx_main_v48 (((cfg2.win 3).blk t).view.emb j) k) o0 rfl,
      blockR V c t (Cert.Bridge.krB j k) (Cert.ReferenceIdeal.ReadP.ridx_main_v48 (((cfg2.win 3).blk t).view.emb j) k) rfl o1]
  · exact blockB V c t (row0 j) (hrow (((cfg2.win 3).blk t).view.emb j)) rfl o1

/-- An index of the result array is in point `t`'s block iff each coordinate is in the block's range. -/
theorem mem_blk (t : Fin cfg2.N) (i : S50000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v47).slice (win2_3.rect t)).set ↔ _
  rw [View.set_slice_whole, Rect.mem_set_unit]
  exact Iff.rfl

/-- Row `r` lies in the block of point `r / 5000`: the ten blocks tile the array. -/
theorem cover (i : S50000x32.Idx) : ∃ t : Fin cfg2.N, (cfg2.win 3).flush t = true ∧ i ∈ ((cfg2.win 3).blk t).view.set := by
  have hN : cfg2.N = 10 := N_2
  have hi0 : (i 0).val < 50000 := (i 0).isLt
  have hi1 : (i 1).val < 32 := (i 1).isLt
  refine ⟨⟨(i 0).val / 5000, by rw [hN]; omega⟩, flush2_3 _, ?_⟩
  rw [mem_blk]
  obtain ⟨-, -, -, -, -, -, e0, e1⟩ := idx_facts ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e0]; show (i 0).val / 5000 * 5000 ≤ (i 0).val ∧ (i 0).val < (i 0).val / 5000 * 5000 + 5000; omega
  | ⟨1, _⟩ => show win2_3.index _ (1 : Fin 2) * 32 ≤ (i 1).val ∧ (i 1).val < win2_3.index _ (1 : Fin 2) * 32 + 32; rw [e1]; omega

/-- The result array after the region: `G` of the arrays it was entered with. -/
theorem final : (dat2 V c).arrAt 3 cfg2.N = G V c :=
  (dat2 V c).arrAt_eq_of_cover 3 (G V c) (fun t _ => flushed_eq V c t) (cover)

end Cert.KernelIdeal.Region2

end
-- ==== Proof.Region3.lean ====
/-
  The decoder's dense layer hd = max(z · W + b, 0), block by block. Point t loads rows 5000 t … 5000 t + 4999 of z, the
  whole of W and the bias row, and writes the larger of zero and the rows' products plus the bias to the same rows of
  the result. The ten blocks tile the 50000 rows, so the result array ends holding, entry by entry, the larger of zero
  and the sum over k of z(r, k) · W(k, c), plus b(c).
-/
import proofs.«132482_j52905407152187_1_alg».proof.Proof.Gen.KernelIdeal.Frame
import proofs.«132482_j52905407152187_1_alg».proof.Proof.DotsK
import proofs.«132482_j52905407152187_1_alg».proof.Proof.DotsH
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region3

open Idealize.ShloMosaic Idealize.ShloMosaic.TcCoe Idealize.SL.Sem Cert.KernelIdeal Cert.KernelIdeal.Gen
open Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: point `t` takes row block `t` of the left factor and of the result, and block
    (0, 0) — the whole — of the right factor and of the bias row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What the result array ends holding, as one function of the arrays the region is entered with. -/
def G : Buf (Elt Ideal) (((cfg3).win 3).arr.view.loc (c.tc : Thread nD τ)) :=
  maximumf (addf (Host.dotGeneral (F := Ideal) (φ₁ := .f32) (φ₂ := .f32) Cert.ReferenceIdeal.dot_S50000x32_S32x64_S50000x64_1_0_0_1_n_n none (V c main_v47 : FVec Ideal Cert.ReferenceIdeal.S50000x32 .f32) (V c main_arg7 : FVec Ideal Cert.ReferenceIdeal.S32x64 .f32)) (broadcastInDim Cert.ReferenceIdeal.S50000x64 ![0, 1] Cert.ReferenceIdeal.Gen.bcast_S1x64_S50000x64_0_1 (V c main_v48))) (broadcastInDim Cert.ReferenceIdeal.S50000x64 ![] Cert.ReferenceIdeal.Gen.bcast_S_S50000x64 (constant (F := Ideal) Cert.ReferenceIdeal.S_ .f32 0x00000000#32))

/-- The left factor's block at point `t` is rows `5000 t …` of the array. -/
theorem blockL (t : Fin cfg3.N) (x : S5000x32.Idx) (i : S50000x32.Idx)
    (h0 : (i 0).val = 5000 * t.val + (x 0).val) (h1 : (i 1).val = (x 1).val) :
    (iblk3 V c 0 t : Vec Ideal S5000x32 .f32) x = (V c main_v47 : S50000x32.Idx → Elt Ideal .f32) i := by
  obtain ⟨e0, e1, -, -, -, -, -, -⟩ := idx_facts t
  unfold iblk3
  rw [View.read_apply]
  show V c main_v47 _ = V c main_v47 _
  congr 1
  funext a
  apply Fin.ext
  match a with
  | ⟨0, _⟩ => show win3_0.index t 0 * 5000 + 1 * (x 0).val = (i 0).val; rw [e0, h0]; omega
  | ⟨1, _⟩ => show win3_0.index t 1 * 32 + 1 * (x 1).val = (i 1).val; rw [e1, h1]; omega

/-- The right factor's block at every point is the whole array. -/
theorem blockR (t : Fin cfg3.N) (x : S32x64.Idx) (i : S32x64.Idx)
    (h0 : (i 0).val = (x 0).val) (h1 : (i 1).val = (x 1).val) :
    (iblk3 V c 1 t : Vec Ideal S32x64 .f32) x = (V c main_arg7 : S32x64.Idx → Elt Ideal .f32) i := by
  obtain ⟨-, -, e0, e1, -, -, -, -⟩ := idx_facts t
  unfold iblk3
  rw [View.read_apply]
  show V c main_arg7 _ = V c main_arg7 _
  congr 1
  funext a
  apply Fin.ext
  match a with
  | ⟨0, _⟩ => show win3_1.index t 0 * 32 + 1 * (x 0).val = (i 0).val; rw [e0, h0]; omega
  | ⟨1, _⟩ => show win3_1.index t 1 * 64 + 1 * (x 1).val = (i 1).val; rw [e1, h1]; omega

/-- The bias row's block at every point is the whole row. -/
theorem blockB (t : Fin cfg3.N) (x : S1x64.Idx) (i : S1x64.Idx)
    (h0 : (i 0).val = (x 0).val) (h1 : (i 1).val = (x 1).val) :
    (iblk3 V c 2 t : Vec Ideal S1x64 .f32) x = (V c main_v48 : S1x64.Idx → Elt Ideal .f32) i := by
  obtain ⟨-, -, -, -, e0, e1, -, -⟩ := idx_facts t
  unfold iblk3
  rw [View.read_apply]
  show V c main_v48 _ = V c main_v48 _
  congr 1
  funext a
  apply Fin.ext
  match a with
  | ⟨0, _⟩ => show win3_2.index t 0 * 1 + 1 * (x 0).val = (i 0).val; rw [e0, h0]; omega
  | ⟨1, _⟩ => show win3_2.index t 1 * 64 + 1 * (x 1).val = (i 1).val; rw [e1, h1]; omega

/-- The one row of a [1, 64] array, at the column of `j`. -/
abbrev row0 (j : S5000x64.Idx) : S1x64.Idx := fun a => match a with
  | ⟨0, _⟩ => ⟨0, Nat.one_pos⟩
  | ⟨1, _⟩ => ⟨(j 1).val, (j 1).isLt⟩

/-- Where entry `j` of the result's block at point `t` sits in the array. -/
theorem embO (t : Fin cfg3.N) (j : S5000x64.Idx) :
    ((((cfg3).win 3).blk t).view.emb j 0).val = 5000 * t.val + (j 0).val
    ∧ ((((cfg3).win 3).blk t).view.emb j 1).val = (j 1).val := by
  obtain ⟨-, -, -, -, -, -, e0, e1⟩ := idx_facts t
  constructor
  · show win3_3.index t 0 * 5000 + 1 * (j 0).val = _; rw [e0]; omega
  · show win3_3.index t 1 * 64 + 1 * (j 1).val = _; rw [e1]; omega

/-- The body's broadcast of the bias row, at an entry. -/
theorem bias_at (Bv : Vec Ideal S1x64 .f32) (j : S5000x64.Idx) :
    broadcastTo S5000x64 Bv broadcasts_S1x64_S5000x64 j = Bv (row0 j) :=
  broadcastTo_apply Bv broadcasts_S1x64_S5000x64 j (row0 j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- The one row of a [1, 64] array, at the column of the array index `i`. -/
abbrev hrow (i : Cert.ReferenceIdeal.S50000x64.Idx) : Cert.ReferenceIdeal.S1x64.Idx := fun a => match a with
  | ⟨0, _⟩ => ⟨0, Nat.one_pos⟩
  | ⟨1, _⟩ => ⟨(i 1).val, (i 1).isLt⟩

/-- The reference's broadcast of the bias row over the 50000 rows, at an entry. -/
theorem hrow_apply (y : (⟨Cert.ReferenceIdeal.S1x64, .f32⟩ : BufTy).Contents (Elt Ideal)) (i : Cert.ReferenceIdeal.S50000x64.Idx) :
    broadcastInDim Cert.ReferenceIdeal.S50000x64 ![0, 1] Cert.ReferenceIdeal.Gen.bcast_S1x64_S50000x64_0_1 y i = y (hrow i) :=
  broadcastInDim_apply _ Cert.ReferenceIdeal.Gen.bcast_S1x64_S50000x64_0_1 y i (hrow i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The reference's zero splat, at an entry. -/
theorem hzero_apply (i : Cert.ReferenceIdeal.S50000x64.Idx) :
    broadcastInDim Cert.ReferenceIdeal.S50000x64 ![] Cert.ReferenceIdeal.Gen.bcast_S_S50000x64 (constant (F := Ideal) Cert.ReferenceIdeal.S_ .f32 0x00000000#32) i = Ideal.ofBits .f32 0x00000000#32 :=
  broadcastInDim_apply _ Cert.ReferenceIdeal.Gen.bcast_S_S50000x64 _ i (fun a => a.elim0) (fun a => a.elim0)

/-- The body's result at an entry of the block. -/
theorem payload (X : Vec Ideal S5000x32 .f32) (W : Vec Ideal S32x64 .f32) (Bv : Vec Ideal S1x64 .f32) (j : S5000x64.Idx) :
    k3_pay1 (F := Ideal) X W Bv j = max ((∑ k : Fin 32, X (Cert.Bridge.klC j k) * W (Cert.Bridge.krC j k)) + Bv (row0 j)) (Ideal.ofBits .f32 0x00000000#32) := by
  unfold k3_pay1
  rw [shapeCast_self, shapeCast_self, maximumf_apply, addf_apply, Cert.Bridge.mmC_apply, bias_at]
  rfl

/-- What point `t` writes back is block `t` of `G`. -/
theorem flushed_eq (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x32) hz, View.ld_unit_zero (S := S32x64) hz, View.ld_unit_zero (S := S1x64) hz]
  funext j
  obtain ⟨o0, o1⟩ := embO t j
  show k3_pay1 (iblk3 V c 0 t) (iblk3 V c 1 t) (iblk3 V c 2 t) j = G V c (((cfg3.win 3).blk t).view.emb j)
  refine (payload (iblk3 V c 0 t) (iblk3 V c 1 t) (iblk3 V c 2 t) j).trans ?_
  unfold G
  rw [maximumf_apply, addf_apply, Cert.Bridge.hdC_apply, hrow_apply, hzero_apply]
  refine congrArg₂ max (congrArg₂ (· + ·) ?_ ?_) rfl
  · refine Finset.sum_congr rfl fun k _ => ?_
    rw [blockL V c t (Cert.Bridge.klC j k) (Cert.ReferenceIdeal.ReadP.lidx_main_v52 (((cfg3.win 3).blk t).view.emb j) k) o0 rfl,
      blockR V c t (Cert.Bridge.krC j k) (Cert.ReferenceIdeal.ReadP.ridx_main_v52 (((cfg3.win 3).blk t).view.emb j) k) rfl o1]
  · exact blockB V c t (row0 j) (hrow (((cfg3.win 3).blk t).view.emb j)) rfl o1

/-- An index of the result array is in point `t`'s block iff each coordinate is in the block's range. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v49).slice (win3_3.rect t)).set ↔ _
  rw [View.set_slice_whole, Rect.mem_set_unit]
  exact Iff.rfl

/-- Row `r` lies in the block of point `r / 5000`: the ten blocks tile the array. -/
theorem cover (i : S50000x64.Idx) : ∃ t : Fin cfg3.N, (cfg3.win 3).flush t = true ∧ i ∈ ((cfg3.win 3).blk t).view.set := by
  have hN : cfg3.N = 10 := N_3
  have hi0 : (i 0).val < 50000 := (i 0).isLt
  have hi1 : (i 1).val < 64 := (i 1).isLt
  refine ⟨⟨(i 0).val / 5000, by rw [hN]; omega⟩, flush3_3 _, ?_⟩
  rw [mem_blk]
  obtain ⟨-, -, -, -, -, -, e0, e1⟩ := idx_facts ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e0]; show (i 0).val / 5000 * 5000 ≤ (i 0).val ∧ (i 0).val < (i 0).val / 5000 * 5000 + 5000; omega
  | ⟨1, _⟩ => show win3_3.index _ (1 : Fin 2) * 64 ≤ (i 1).val ∧ (i 1).val < win3_3.index _ (1 : Fin 2) * 64 + 64; rw [e1]; omega

/-- The result array after the region: `G` of the arrays it was entered with. -/
theorem final : (dat3 V c).arrAt 3 cfg3.N = G V c :=
  (dat3 V c).arrAt_eq_of_cover 3 (G V c) (fun t _ => flushed_eq V c t) (cover)

end Cert.KernelIdeal.Region3

end
-- ==== Proof.Region4.lean ====
/-
  The decoder's graph-layer product, block by block. The pallas_call computes hd · W one block of 5000 rows per grid
  point: point t loads rows 5000 t … 5000 t + 4999 of hd and the whole of W, and writes their product to the same rows
  of the result. The ten blocks tile the 50000 rows, so the result array ends holding the product of the whole arrays,
  entry by entry the sum over k of hd(r, k) · W(k, c).
-/
import proofs.«132482_j52905407152187_1_alg».proof.Proof.Gen.KernelIdeal.Frame
import proofs.«132482_j52905407152187_1_alg».proof.Proof.DotsK
import proofs.«132482_j52905407152187_1_alg».proof.Proof.DotsH
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region4

open Idealize.ShloMosaic Idealize.ShloMosaic.TcCoe Idealize.SL.Sem Cert.KernelIdeal Cert.KernelIdeal.Gen
open Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: point `t` takes row block `t` of the left factor and of the result, and block
    (0, 0) — the whole — of the right factor. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What the result array ends holding, as one function of the arrays the region is entered with. -/
def G : Buf (Elt Ideal) (((cfg4).win 2).arr.view.loc (c.tc : Thread nD τ)) :=
  Host.dotGeneral (F := Ideal) (φ₁ := .f32) (φ₂ := .f32) Cert.ReferenceIdeal.dot_S50000x64_S64x256_S50000x256_1_0_0_1_n_n none (V c main_v49 : FVec Ideal Cert.ReferenceIdeal.S50000x64 .f32) (V c main_arg9 : FVec Ideal Cert.ReferenceIdeal.S64x256 .f32)

/-- The left factor's block at point `t` is rows `5000 t …` of the array. -/
theorem blockL (t : Fin cfg4.N) (x : S5000x64.Idx) (i : S50000x64.Idx)
    (h0 : (i 0).val = 5000 * t.val + (x 0).val) (h1 : (i 1).val = (x 1).val) :
    (iblk4 V c 0 t : Vec Ideal S5000x64 .f32) x = (V c main_v49 : S50000x64.Idx → Elt Ideal .f32) i := by
  obtain ⟨e0, e1, -, -, -, -⟩ := idx_facts t
  unfold iblk4
  rw [View.read_apply]
  show V c main_v49 _ = V c main_v49 _
  congr 1
  funext a
  apply Fin.ext
  match a with
  | ⟨0, _⟩ => show win4_0.index t 0 * 5000 + 1 * (x 0).val = (i 0).val; rw [e0, h0]; omega
  | ⟨1, _⟩ => show win4_0.index t 1 * 64 + 1 * (x 1).val = (i 1).val; rw [e1, h1]; omega

/-- The right factor's block at every point is the whole array. -/
theorem blockR (t : Fin cfg4.N) (x : S64x256.Idx) (i : S64x256.Idx)
    (h0 : (i 0).val = (x 0).val) (h1 : (i 1).val = (x 1).val) :
    (iblk4 V c 1 t : Vec Ideal S64x256 .f32) x = (V c main_arg9 : S64x256.Idx → Elt Ideal .f32) i := by
  obtain ⟨-, -, e0, e1, -, -⟩ := idx_facts t
  unfold iblk4
  rw [View.read_apply]
  show V c main_arg9 _ = V c main_arg9 _
  congr 1
  funext a
  apply Fin.ext
  match a with
  | ⟨0, _⟩ => show win4_1.index t 0 * 64 + 1 * (x 0).val = (i 0).val; rw [e0, h0]; omega
  | ⟨1, _⟩ => show win4_1.index t 1 * 256 + 1 * (x 1).val = (i 1).val; rw [e1, h1]; omega

/-- Where entry `j` of the result's block at point `t` sits in the array. -/
theorem embO (t : Fin cfg4.N) (j : S5000x256.Idx) :
    ((((cfg4).win 2).blk t).view.emb j 0).val = 5000 * t.val + (j 0).val
    ∧ ((((cfg4).win 2).blk t).view.emb j 1).val = (j 1).val := by
  obtain ⟨-, -, -, -, e0, e1⟩ := idx_facts t
  constructor
  · show win4_2.index t 0 * 5000 + 1 * (j 0).val = _; rw [e0]; omega
  · show win4_2.index t 1 * 256 + 1 * (j 1).val = _; rw [e1]; omega

/-- The body's result at an entry of the block. -/
theorem payload (X : Vec Ideal S5000x64 .f32) (W : Vec Ideal S64x256 .f32) (j : S5000x256.Idx) :
    k4_pay1 (F := Ideal) X W j = ∑ k : Fin 64, X (Cert.Bridge.klD j k) * W (Cert.Bridge.krD j k) := by
  unfold k4_pay1
  rw [shapeCast_self, Cert.Bridge.mmD_apply]
  rfl

/-- What point `t` writes back is block `t` of `G`. -/
theorem flushed_eq (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x256) hz]
  funext j
  obtain ⟨o0, o1⟩ := embO t j
  show k4_pay1 (iblk4 V c 0 t) (iblk4 V c 1 t) j = G V c (((cfg4.win 2).blk t).view.emb j)
  refine (payload (iblk4 V c 0 t) (iblk4 V c 1 t) j).trans ?_
  unfold G
  rw [Cert.Bridge.hdD_apply]
  refine Finset.sum_congr rfl fun k _ => ?_
  rw [blockL V c t (Cert.Bridge.klD j k) (Cert.ReferenceIdeal.ReadP.lidx_main_v83 (((cfg4.win 2).blk t).view.emb j) k) o0 rfl,
    blockR V c t (Cert.Bridge.krD j k) (Cert.ReferenceIdeal.ReadP.ridx_main_v83 (((cfg4.win 2).blk t).view.emb j) k) rfl o1]

/-- An index of the result array is in point `t`'s block iff each coordinate is in the block's range. -/
theorem mem_blk (t : Fin cfg4.N) (i : S50000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v50).slice (win4_2.rect t)).set ↔ _
  rw [View.set_slice_whole, Rect.mem_set_unit]
  exact Iff.rfl

/-- Row `r` lies in the block of point `r / 5000`: the ten blocks tile the array. -/
theorem cover (i : S50000x256.Idx) : ∃ t : Fin cfg4.N, (cfg4.win 2).flush t = true ∧ i ∈ ((cfg4.win 2).blk t).view.set := by
  have hN : cfg4.N = 10 := N_4
  have hi0 : (i 0).val < 50000 := (i 0).isLt
  have hi1 : (i 1).val < 256 := (i 1).isLt
  refine ⟨⟨(i 0).val / 5000, by rw [hN]; omega⟩, flush4_2 _, ?_⟩
  rw [mem_blk]
  obtain ⟨-, -, -, -, e0, e1⟩ := idx_facts ⟨(i 0).val / 5000, by rw [hN]; omega⟩
  intro a
  match a with
  | ⟨0, _⟩ => show win4_2.index _ (0 : Fin 2) * 5000 ≤ (i 0).val ∧ (i 0).val < win4_2.index _ (0 : Fin 2) * 5000 + 5000; rw [e0]; show (i 0).val / 5000 * 5000 ≤ (i 0).val ∧ (i 0).val < (i 0).val / 5000 * 5000 + 5000; omega
  | ⟨1, _⟩ => show win4_2.index _ (1 : Fin 2) * 256 ≤ (i 1).val ∧ (i 1).val < win4_2.index _ (1 : Fin 2) * 256 + 256; rw [e1]; omega

/-- The result array after the region: `G` of the arrays it was entered with. -/
theorem final : (dat4 V c).arrAt 2 cfg4.N = G V c :=
  (dat4 V c).arrAt_eq_of_cover 2 (G V c) (fun t _ => flushed_eq V c t) (cover)

end Cert.KernelIdeal.Region4

end
-- ==== Proof.Region5.lean ====
/-
  The last bias layer, block by block. The pallas_call computes x + b one block of 5000 rows per grid point: point t
  loads rows 5000 t … 5000 t + 4999 of x and the whole bias row b, and writes x(r, n) + b(0, n) to the same rows of the
  result. The ten blocks tile the 50000 rows, so the result array ends holding x(r, n) + b(0, n) at every entry (r, n)
  of the whole arrays.
-/
import proofs.«132482_j52905407152187_1_alg».proof.Proof.Gen.KernelIdeal.Frame
import proofs.«132482_j52905407152187_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Region5

open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: point `t` takes row block `t` of the summand and of the result, and block
    (0, 0) — the whole — of the bias row. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The summand array and the bias row as the region finds them. -/
abbrev arrX : Vec Ideal S50000x256 .f32 := V c main_v62
abbrev arrB : Vec Ideal S1x256 .f32 := V c main_v63

/-- The whole-array value the result ends holding. -/
def G : Buf (Elt Ideal) (((cfg5).win 2).arr.view.loc (c.tc : Thread nD τ)) :=
    addf (F := Ideal) (φ := .f32) (V c main_v62) (broadcastInDim Cert.ReferenceIdeal.S50000x256 ![0, 1] Cert.ReferenceIdeal.Gen.bcast_S1x256_S50000x256_0_1 (V c main_v63))

/-- The bias row's index under column `n`. -/
def rowIdx (n : Fin 256) : S1x256.Idx := fun a => match a with
  | ⟨0, _⟩ => ⟨0, Nat.one_pos⟩
  | ⟨1, _⟩ => ⟨n.val, n.isLt⟩

/-- The whole-array value at an entry: the summand's entry plus the bias under its column. -/
theorem G_apply (i : S50000x256.Idx) :
    G V c i = arrX V c i + arrB V c (rowIdx (i 1)) := by
  unfold G
  rw [addf_apply]
  rw [broadcastInDim_apply _ Cert.ReferenceIdeal.Gen.bcast_S1x256_S50000x256_0_1 _ i (rowIdx (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]

/-- The summand's block at point `t` is rows `5000 t …` of the array. -/
theorem blockX (t : Fin cfg5.N) (x : S5000x256.Idx) (i : S50000x256.Idx)
    (h0 : (i 0).val = 5000 * t.val + (x 0).val) (h1 : (i 1).val = (x 1).val) :
    (iblk5 V c 0 t : Vec Ideal S5000x256 .f32) x = arrX V c i := by
  obtain ⟨e0, e1, -, -, -, -⟩ := idx_facts t
  unfold iblk5
  rw [View.read_apply]
  show V c main_v62 _ = V c main_v62 _
  congr 1
  funext a
  apply Fin.ext
  match a with
  | ⟨0, _⟩ => show win5_0.index t 0 * 5000 + 1 * (x 0).val = (i 0).val; rw [e0, h0]; omega
  | ⟨1, _⟩ => show win5_0.index t 1 * 256 + 1 * (x 1).val = (i 1).val; rw [e1, h1]; omega

/-- The bias row's block at every point is the whole row. -/
theorem blockB (t : Fin cfg5.N) (x : S1x256.Idx) (i : S1x256.Idx)
    (h0 : (i 0).val = (x 0).val) (h1 : (i 1).val = (x 1).val) :
    (iblk5 V c 1 t : Vec Ideal S1x256 .f32) x = arrB V c i := by
  obtain ⟨-, -, e0, e1, -, -⟩ := idx_facts t
  unfold iblk5
  rw [View.read_apply]
  show V c main_v63 _ = V c main_v63 _
  congr 1
  funext a
  apply Fin.ext
  match a with
  | ⟨0, _⟩ => show win5_1.index t 0 * 1 + 1 * (x 0).val = (i 0).val; rw [e0, h0]; omega
  | ⟨1, _⟩ => show win5_1.index t 1 * 256 + 1 * (x 1).val = (i 1).val; rw [e1, h1]; omega

/-- Where entry `j` of the result's block at point `t` sits in the array. -/
theorem embO (t : Fin cfg5.N) (j : S5000x256.Idx) :
    (((cfg5.win 2).blk t).view.emb j 0).val = 5000 * t.val + (j 0).val
    ∧ (((cfg5.win 2).blk t).view.emb j 1).val = (j 1).val := by
  obtain ⟨-, -, -, -, e0, e1⟩ := idx_facts t
  constructor
  · show win5_2.index t 0 * 5000 + 1 * (j 0).val = _; rw [e0]; omega
  · show win5_2.index t 1 * 256 + 1 * (j 1).val = _; rw [e1]; omega

/-- The body's value at an entry of the block: the summand's entry plus the bias under its column. -/
theorem payload (X : Vec Ideal S5000x256 .f32) (B : Vec Ideal S1x256 .f32) (j : S5000x256.Idx) :
    k5_pay1 (F := Ideal) X B j = X j + B (rowIdx (j 1)) := by
  unfold k5_pay1
  show shapeCast S5000x256 X shapeCasts_S5000x256_S5000x256 j + broadcastTo S5000x256 (shapeCast S1x256 B shapeCasts_S1x256_S1x256) broadcasts_S1x256_S5000x256 j = _
  rw [shapeCast_self, shapeCast_self]
  rw [broadcastTo_apply B broadcasts_S1x256_S5000x256 j (rowIdx (j 1)) (fun a => match a with
    | ⟨0, _⟩ => by show 0 = if (1 : Nat) = 1 then 0 else _; rw [if_pos rfl]
    | ⟨1, _⟩ => by show (j 1).val = if (256 : Nat) = 1 then 0 else _; rw [if_neg (by decide)]; rfl)]

/-- What point `t` writes back is block `t` of the whole-array value. -/
theorem flushed_eq (t : Fin cfg5.N) :
    (dat5 V c).flushed 2 t = ((cfg5.win 2).blk t).view.read (Elt Ideal) (G V c) := by
  show (cfg5.win 2).cut (grid5.coords t) ((dat5 V c).after 2 t) = _
  rw [after5_2]
  unfold out5_2
  rw [View.canon_unit_zero hz]
  simp only [View.ld_unit_zero (S := S5000x256) hz, View.ld_unit_zero (S := S1x256) hz]
  funext j
  obtain ⟨o0, o1⟩ := embO t j
  show k5_pay1 (iblk5 V c 0 t) (iblk5 V c 1 t) j = G V c (((cfg5.win 2).blk t).view.emb j)
  refine (payload (iblk5 V c 0 t) (iblk5 V c 1 t) j).trans ?_
  rw [G_apply, blockX V c t j (((cfg5.win 2).blk t).view.emb j) o0 o1,
    blockB V c t (rowIdx (j 1)) (rowIdx ((((cfg5.win 2).blk t).view.emb j) 1)) rfl o1]

/-- An index of the result array is in point `t`'s block iff each coordinate is in the block's range. -/
theorem mem_blk (t : Fin cfg5.N) (i : S50000x256.Idx) :
    i ∈ ((cfg5.win 2).blk t).view.set ↔ ∀ a : Fin 2, win5_2.index t a * S5000x256.size a ≤ (i a).val ∧ (i a).val < win5_2.index t a * S5000x256.size a + S5000x256.size a := by
  show i ∈ ((View.whole main_v64).slice (win5_2.rect t)).set ↔ _
  rw [View.set_slice_whole, Rect.mem_set_unit]
  exact Iff.rfl

/-- Row `r` lies in the block of point `r / 5000`: the ten blocks tile the array. -/
theorem cover (i : S50000x256.Idx) : ∃ t : Fin cfg5.N, (cfg5.win 2).flush t = true ∧ i ∈ ((cfg5.win 2).blk t).view.set := by
  have hN : cfg5.N = 10 := N_5
  have hi0 : (i 0).val < 50000 := (i 0).isLt
  have hi1 : (i 1).val < 256 := (i 1).isLt
  refine ⟨⟨(i 0).val / 5000, by rw [hN]; omega⟩, flush5_2 _, ?_⟩
  rw [mem_blk]
  obtain ⟨-, -, -, -, e0, e1⟩ := idx_facts ⟨(i 0).val / 5000, by rw [hN]; omega⟩
  intro a
  match a with
  | ⟨0, _⟩ => show win5_2.index _ (0 : Fin 2) * 5000 ≤ (i 0).val ∧ (i 0).val < win5_2.index _ (0 : Fin 2) * 5000 + 5000; rw [e0]; show (i 0).val / 5000 * 5000 ≤ (i 0).val ∧ (i 0).val < (i 0).val / 5000 * 5000 + 5000; omega
  | ⟨1, _⟩ => show win5_2.index _ (1 : Fin 2) * 256 ≤ (i 1).val ∧ (i 1).val < win5_2.index _ (1 : Fin 2) * 256 + 256; rw [e1]; omega

/-- The result array after the region: the whole summand plus the bias row, entry by entry. -/
theorem final : (dat5 V c).arrAt 2 cfg5.N = G V c :=
  (dat5 V c).arrAt_eq_of_cover 2 (G V c) (fun t _ => flushed_eq V c t) (cover)

end Cert.KernelIdeal.Region5

end
-- ==== Proof.Region6.lean ====
/-
  The condition head pred = z · W + b, block by block. Point t loads rows 5000 t … 5000 t + 4999 of z, the whole of W
  and the bias row, and writes the rows' products plus the bias to the same rows of the result. The ten blocks tile the
  50000 rows, so the result array ends holding, entry by entry, the sum over k of z(r, k) · W(k, c), plus b(c).
-/
import proofs.«132482_j52905407152187_1_alg».proof.Proof.Gen.KernelIdeal.Frame
import proofs.«132482_j52905407152187_1_alg».proof.Proof.DotsK
import proofs.«132482_j52905407152187_1_alg».proof.Proof.DotsH
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region6

open Idealize.ShloMosaic Idealize.ShloMosaic.TcCoe Idealize.SL.Sem Cert.KernelIdeal Cert.KernelIdeal.Gen
open Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: point `t` takes row block `t` of the left factor and of the result, and block
    (0, 0) — the whole — of the right factor and of the bias row. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What the result array ends holding, as one function of the arrays the region is entered with. -/
def G : Buf (Elt Ideal) (((cfg6).win 3).arr.view.loc (c.tc : Thread nD τ)) :=
  addf (Host.dotGeneral (F := Ideal) (φ₁ := .f32) (φ₂ := .f32) Cert.ReferenceIdeal.dot_S50000x32_S32x3_S50000x3_1_0_0_1_n_n none (V c main_v47 : FVec Ideal Cert.ReferenceIdeal.S50000x32 .f32) (V c main_arg11 : FVec Ideal Cert.ReferenceIdeal.S32x3 .f32)) (broadcastInDim Cert.ReferenceIdeal.S50000x3 ![0, 1] Cert.ReferenceIdeal.Gen.bcast_S1x3_S50000x3_0_1 (V c main_v65))

/-- The left factor's block at point `t` is rows `5000 t …` of the array. -/
theorem blockL (t : Fin cfg6.N) (x : S5000x32.Idx) (i : S50000x32.Idx)
    (h0 : (i 0).val = 5000 * t.val + (x 0).val) (h1 : (i 1).val = (x 1).val) :
    (iblk6 V c 0 t : Vec Ideal S5000x32 .f32) x = (V c main_v47 : S50000x32.Idx → Elt Ideal .f32) i := by
  obtain ⟨e0, e1, -, -, -, -, -, -⟩ := idx_facts t
  unfold iblk6
  rw [View.read_apply]
  show V c main_v47 _ = V c main_v47 _
  congr 1
  funext a
  apply Fin.ext
  match a with
  | ⟨0, _⟩ => show win6_0.index t 0 * 5000 + 1 * (x 0).val = (i 0).val; rw [e0, h0]; omega
  | ⟨1, _⟩ => show win6_0.index t 1 * 32 + 1 * (x 1).val = (i 1).val; rw [e1, h1]; omega

/-- The right factor's block at every point is the whole array. -/
theorem blockR (t : Fin cfg6.N) (x : S32x3.Idx) (i : S32x3.Idx)
    (h0 : (i 0).val = (x 0).val) (h1 : (i 1).val = (x 1).val) :
    (iblk6 V c 1 t : Vec Ideal S32x3 .f32) x = (V c main_arg11 : S32x3.Idx → Elt Ideal .f32) i := by
  obtain ⟨-, -, e0, e1, -, -, -, -⟩ := idx_facts t
  unfold iblk6
  rw [View.read_apply]
  show V c main_arg11 _ = V c main_arg11 _
  congr 1
  funext a
  apply Fin.ext
  match a with
  | ⟨0, _⟩ => show win6_1.index t 0 * 32 + 1 * (x 0).val = (i 0).val; rw [e0, h0]; omega
  | ⟨1, _⟩ => show win6_1.index t 1 * 3 + 1 * (x 1).val = (i 1).val; rw [e1, h1]; omega

/-- The bias row's block at every point is the whole row. -/
theorem blockB (t : Fin cfg6.N) (x : S1x3.Idx) (i : S1x3.Idx)
    (h0 : (i 0).val = (x 0).val) (h1 : (i 1).val = (x 1).val) :
    (iblk6 V c 2 t : Vec Ideal S1x3 .f32) x = (V c main_v65 : S1x3.Idx → Elt Ideal .f32) i := by
  obtain ⟨-, -, -, -, e0, e1, -, -⟩ := idx_facts t
  unfold iblk6
  rw [View.read_apply]
  show V c main_v65 _ = V c main_v65 _
  congr 1
  funext a
  apply Fin.ext
  match a with
  | ⟨0, _⟩ => show win6_2.index t 0 * 1 + 1 * (x 0).val = (i 0).val; rw [e0, h0]; omega
  | ⟨1, _⟩ => show win6_2.index t 1 * 3 + 1 * (x 1).val = (i 1).val; rw [e1, h1]; omega

/-- The one row of a [1, 3] array, at the column of `j`. -/
abbrev row0 (j : S5000x3.Idx) : S1x3.Idx := fun a => match a with
  | ⟨0, _⟩ => ⟨0, Nat.one_pos⟩
  | ⟨1, _⟩ => ⟨(j 1).val, (j 1).isLt⟩

/-- Where entry `j` of the result's block at point `t` sits in the array. -/
theorem embO (t : Fin cfg6.N) (j : S5000x3.Idx) :
    ((((cfg6).win 3).blk t).view.emb j 0).val = 5000 * t.val + (j 0).val
    ∧ ((((cfg6).win 3).blk t).view.emb j 1).val = (j 1).val := by
  obtain ⟨-, -, -, -, -, -, e0, e1⟩ := idx_facts t
  constructor
  · show win6_3.index t 0 * 5000 + 1 * (j 0).val = _; rw [e0]; omega
  · show win6_3.index t 1 * 3 + 1 * (j 1).val = _; rw [e1]; omega

/-- The body's broadcast of the bias row, at an entry. -/
theorem bias_at (Bv : Vec Ideal S1x3 .f32) (j : S5000x3.Idx) :
    broadcastTo S5000x3 Bv broadcasts_S1x3_S5000x3 j = Bv (row0 j) :=
  broadcastTo_apply Bv broadcasts_S1x3_S5000x3 j (row0 j) (fun a => match a with
    | ⟨0, _⟩ => by show 0 = if (1 : Nat) = 1 then 0 else _; rw [if_pos rfl]
    | ⟨1, _⟩ => by show (j 1).val = if (3 : Nat) = 1 then 0 else (j 1).val; rw [if_neg (by decide)])

/-- The one row of a [1, 3] array, at the column of the array index `i`. -/
abbrev hrow (i : Cert.ReferenceIdeal.S50000x3.Idx) : Cert.ReferenceIdeal.S1x3.Idx := fun a => match a with
  | ⟨0, _⟩ => ⟨0, Nat.one_pos⟩
  | ⟨1, _⟩ => ⟨(i 1).val, (i 1).isLt⟩

/-- The reference's broadcast of the bias row over the 50000 rows, at an entry. -/
theorem hrow_apply (y : (⟨Cert.ReferenceIdeal.S1x3, .f32⟩ : BufTy).Contents (Elt Ideal)) (i : Cert.ReferenceIdeal.S50000x3.Idx) :
    broadcastInDim Cert.ReferenceIdeal.S50000x3 ![0, 1] Cert.ReferenceIdeal.Gen.bcast_S1x3_S50000x3_0_1 y i = y (hrow i) :=
  broadcastInDim_apply _ Cert.ReferenceIdeal.Gen.bcast_S1x3_S50000x3_0_1 y i (hrow i) (fun a => match a with
    | ⟨0, _⟩ => by show 0 = if (1 : Nat) = 1 then 0 else (i 0).val; rw [if_pos rfl]
    | ⟨1, _⟩ => by show (i 1).val = if (3 : Nat) = 1 then 0 else (i 1).val; rw [if_neg (by decide)])

/-- The body's result at an entry of the block. -/
theorem payload (X : Vec Ideal S5000x32 .f32) (W : Vec Ideal S32x3 .f32) (Bv : Vec Ideal S1x3 .f32) (j : S5000x3.Idx) :
    k6_pay1 (F := Ideal) X W Bv j = (∑ k : Fin 32, X (Cert.Bridge.klE j k) * W (Cert.Bridge.krE j k)) + Bv (row0 j) := by
  unfold k6_pay1
  rw [shapeCast_self, shapeCast_self, addf_apply, Cert.Bridge.mmE_apply, bias_at]
  rfl

/-- What point `t` writes back is block `t` of `G`. -/
theorem flushed_eq (t : Fin cfg6.N) :
    (dat6 V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S5000x32) hz, View.ld_unit_zero (S := S32x3) hz, View.ld_unit_zero (S := S1x3) hz]
  funext j
  obtain ⟨o0, o1⟩ := embO t j
  show k6_pay1 (iblk6 V c 0 t) (iblk6 V c 1 t) (iblk6 V c 2 t) j = G V c (((cfg6.win 3).blk t).view.emb j)
  refine (payload (iblk6 V c 0 t) (iblk6 V c 1 t) (iblk6 V c 2 t) j).trans ?_
  unfold G
  rw [addf_apply, Cert.Bridge.hdE_apply, hrow_apply]
  refine congrArg₂ (· + ·) ?_ ?_
  · refine Finset.sum_congr rfl fun k _ => ?_
    rw [blockL V c t (Cert.Bridge.klE j k) (Cert.ReferenceIdeal.ReadP.lidx_main_v100 (((cfg6.win 3).blk t).view.emb j) k) o0 rfl,
      blockR V c t (Cert.Bridge.krE j k) (Cert.ReferenceIdeal.ReadP.ridx_main_v100 (((cfg6.win 3).blk t).view.emb j) k) rfl o1]
  · exact blockB V c t (row0 j) (hrow (((cfg6.win 3).blk t).view.emb j)) rfl o1

/-- An index of the result array is in point `t`'s block iff each coordinate is in the block's range. -/
theorem mem_blk (t : Fin cfg6.N) (i : S50000x3.Idx) :
    i ∈ ((cfg6.win 3).blk t).view.set ↔ ∀ a : Fin 2, win6_3.index t a * S5000x3.size a ≤ (i a).val ∧ (i a).val < win6_3.index t a * S5000x3.size a + S5000x3.size a := by
  show i ∈ ((View.whole main_v66).slice (win6_3.rect t)).set ↔ _
  rw [View.set_slice_whole, Rect.mem_set_unit]
  exact Iff.rfl

/-- Row `r` lies in the block of point `r / 5000`: the ten blocks tile the array. -/
theorem cover (i : S50000x3.Idx) : ∃ t : Fin cfg6.N, (cfg6.win 3).flush t = true ∧ i ∈ ((cfg6.win 3).blk t).view.set := by
  have hN : cfg6.N = 10 := N_6
  have hi0 : (i 0).val < 50000 := (i 0).isLt
  have hi1 : (i 1).val < 3 := (i 1).isLt
  refine ⟨⟨(i 0).val / 5000, by rw [hN]; omega⟩, flush6_3 _, ?_⟩
  rw [mem_blk]
  obtain ⟨-, -, -, -, -, -, e0, e1⟩ := idx_facts ⟨(i 0).val / 5000, by rw [hN]; omega⟩
  intro a
  match a with
  | ⟨0, _⟩ => show win6_3.index _ (0 : Fin 2) * 5000 ≤ (i 0).val ∧ (i 0).val < win6_3.index _ (0 : Fin 2) * 5000 + 5000; rw [e0]; show (i 0).val / 5000 * 5000 ≤ (i 0).val ∧ (i 0).val < (i 0).val / 5000 * 5000 + 5000; omega
  | ⟨1, _⟩ => show win6_3.index _ (1 : Fin 2) * 3 ≤ (i 1).val ∧ (i 1).val < win6_3.index _ (1 : Fin 2) * 3 + 3; rw [e1]; omega

/-- The result array after the region: `G` of the arrays it was entered with. -/
theorem final : (dat6 V c).arrAt 3 cfg6.N = G V c :=
  (dat6 V c).arrAt_eq_of_cover 3 (G V c) (fun t _ => flushed_eq V c t) (cover)

end Cert.KernelIdeal.Region6

end
-- ==== Proof.Assemble.lean ====
/-
  The kernel's run, stage by stage, is the reference's. The network is
      h = x · W1,  A = agg(h),  H = max(A + b1, 0),  z = H · W2 + b2,  hd = max(z · W3 + b3, 0),
      h2 = hd · W4,  A2 = agg(h2),  x' = A2 + b4,  pred = z · W5 + b5,
  where agg gathers the rows of its operand along the edges (with the self loops), scales each by the symmetric
  degree normalisation and sums them into the destination rows. The kernel runs the seven dense and bias stages as
  pallas_calls over blocks of 5000 rows and the aggregations as host operations between them; the reference runs
  everything as host operations on whole arrays. Read over the extended reals each stage of the kernel is the same
  function of the same earlier stages as the reference's: the blocked products are the whole products, a bias row
  reshaped to [1, n] is the reference's broadcast of it, and the host operations are the reference's own, applied to
  equal values. So the three result arrays end at the reference's terms of the argument arrays.
-/
import proofs.«132482_j52905407152187_1_alg».proof.Proof.Walk
import proofs.«132482_j52905407152187_1_alg».proof.Proof.HostVals
import proofs.«132482_j52905407152187_1_alg».proof.Proof.Region0
import proofs.«132482_j52905407152187_1_alg».proof.Proof.Region1
import proofs.«132482_j52905407152187_1_alg».proof.Proof.Region2
import proofs.«132482_j52905407152187_1_alg».proof.Proof.Region3
import proofs.«132482_j52905407152187_1_alg».proof.Proof.Region4
import proofs.«132482_j52905407152187_1_alg».proof.Proof.Region5
import proofs.«132482_j52905407152187_1_alg».proof.Proof.Region6

set_option maxRecDepth 16384

noncomputable section

namespace Cert.KernelIdeal.Assemble

open Idealize.ShloMosaic Idealize.ShloMosaic.TcCoe Idealize.SL.Sem Cert.KernelIdeal Cert.KernelIdeal.Gen
open Cert.KernelIdeal.Walk Cert.KernelIdeal.HostVals

variable (m : (ℓ : Loc nD τ sig) → Buf (Elt Ideal) ℓ) (ρ : Dev nD → PrngReg) (c : Dev nD)

/-! ## The argument arrays as launched -/
abbrev x0 := m ((c : Thread nD τ).loc main_arg0)
abbrev x1 := m ((c : Thread nD τ).loc main_arg1)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)
abbrev x11 := m ((c : Thread nD τ).loc main_arg11)
abbrev x12 := m ((c : Thread nD τ).loc main_arg12)

/-! ## The stages -/

/-- h = x · W1: the first region's result. -/
theorem h_val : W4 m ρ c (Proc.devRef .tc main_v31) = Cert.ReferenceIdeal.ReadP.val_main_v30 (F := Ideal) (x0 m c) (x3 m c) := by
  refine (W4_arr m ρ c 2).trans ((Region0.final (V3 m ρ) c).trans ?_)
  unfold Region0.G
  rw [show V3 m ρ c main_arg0 = x0 m c from W3_arg0 m ρ c, show V3 m ρ c main_arg3 = x3 m c from W3_arg3 m ρ c]
  rfl

/-- A = agg(h), the host operations after the first region: the reference's aggregation of the same product. -/
theorem A_val : W5 m ρ c (Proc.devRef .tc main_v43) = Cert.ReferenceIdeal.ReadP.val_main_v43 (F := Ideal) (x0 m c) (x1 m c) (x3 m c) := by
  refine (W5_v43 m ρ c).trans ?_
  rw [h_val, W4_v5, W4_v6, W4_v30, W3_v5, W3_v6, W3_v30]
  exact (ref_agg64 _ _ _).symm

/-- H = max(A + b1, 0): the second region's result. -/
theorem H_val : W6 m ρ c (Proc.devRef .tc main_v45) = Cert.ReferenceIdeal.ReadP.val_main_v47 (F := Ideal) (x0 m c) (x1 m c) (x3 m c) (x4 m c) := by
  refine (W6_arr m ρ c 2).trans ((Region1.final (V5 m ρ) c).trans ?_)
  have eb : V5 m ρ c main_v44 = Cert.ReferenceIdeal.ReadP.val_main_v44 (F := Ideal) (x4 m c) := by
    refine (W5_v44 m ρ c).trans ?_
    rw [W4_arg4]; exact row64 _
  unfold Region1.G
  rw [show V5 m ρ c main_v43 = _ from A_val m ρ c, eb]
  rfl

/-- z = H · W2 + b2: the third region's result. -/
theorem z_val : W8 m ρ c (Proc.devRef .tc main_v47) = Cert.ReferenceIdeal.ReadP.val_main_v51 (F := Ideal) (x0 m c) (x1 m c) (x3 m c) (x4 m c) (x5 m c) (x6 m c) := by
  refine (W8_arr m ρ c 3).trans ((Region2.final (V7 m ρ) c).trans ?_)
  have eH : V7 m ρ c main_v45 = Cert.ReferenceIdeal.ReadP.val_main_v47 (F := Ideal) (x0 m c) (x1 m c) (x3 m c) (x4 m c) := (W7_v45 m ρ c).trans (H_val m ρ c)
  have eb : V7 m ρ c main_v46 = Cert.ReferenceIdeal.ReadP.val_main_v49 (F := Ideal) (x6 m c) := by
    refine (W7_v46 m ρ c).trans ?_
    rw [W6_arg6]; exact row32 _
  unfold Region2.G
  rw [eH, show V7 m ρ c main_arg5 = x5 m c from W7_arg5 m ρ c, eb]
  rfl

/-- hd = max(z · W3 + b3, 0): the fourth region's result. -/
theorem hd_val : W10 m ρ c (Proc.devRef .tc main_v49) = Cert.ReferenceIdeal.ReadP.val_main_v56 (F := Ideal) (x0 m c) (x1 m c) (x3 m c) (x4 m c) (x5 m c) (x6 m c) (x7 m c) (x8 m c) := by
  refine (W10_arr m ρ c 3).trans ((Region3.final (V9 m ρ) c).trans ?_)
  have ez : V9 m ρ c main_v47 = Cert.ReferenceIdeal.ReadP.val_main_v51 (F := Ideal) (x0 m c) (x1 m c) (x3 m c) (x4 m c) (x5 m c) (x6 m c) := (W9_v47 m ρ c).trans (z_val m ρ c)
  have eb : V9 m ρ c main_v48 = Cert.ReferenceIdeal.ReadP.val_main_v53 (F := Ideal) (x8 m c) := by
    refine (W9_v48 m ρ c).trans ?_
    rw [W8_arg8]; exact row64' _
  unfold Region3.G
  rw [ez, show V9 m ρ c main_arg7 = x7 m c from W9_arg7 m ρ c, eb]
  rfl

/-- h2 = hd · W4: the fifth region's result. -/
theorem h2_val : W11 m ρ c (Proc.devRef .tc main_v50) = Cert.ReferenceIdeal.ReadP.val_main_v83 (F := Ideal) (x0 m c) (x1 m c) (x3 m c) (x4 m c) (x5 m c) (x6 m c) (x7 m c) (x8 m c) (x9 m c) := by
  refine (W11_arr m ρ c 2).trans ((Region4.final (V10 m ρ) c).trans ?_)
  unfold Region4.G
  rw [show V10 m ρ c main_v49 = _ from hd_val m ρ c, show V10 m ρ c main_arg9 = x9 m c from W10_arg9 m ρ c]
  rfl

/-- A2 = agg(h2), the host operations after the fifth region: the reference's second aggregation. -/
theorem A2_val : W12 m ρ c (Proc.devRef .tc main_v62) = Cert.ReferenceIdeal.ReadP.val_main_v96 (F := Ideal) (x0 m c) (x1 m c) (x3 m c) (x4 m c) (x5 m c) (x6 m c) (x7 m c) (x8 m c) (x9 m c) := by
  refine (W12_v62 m ρ c).trans ?_
  rw [h2_val, W11_v5, W11_v6, W11_v30, W3_v5, W3_v6, W3_v30]
  exact (ref_agg256 _ _ _ _ _ _ _ _ _).symm

/-- x' = A2 + b4: the sixth region's result, the first result of the program. -/
theorem xr_val : W15 m ρ c (Proc.devRef .tc main_v64) = Cert.ReferenceIdeal.ReadP.val_main_v99 (F := Ideal) (x0 m c) (x1 m c) (x3 m c) (x4 m c) (x5 m c) (x6 m c) (x7 m c) (x8 m c) (x9 m c) (x10 m c) := by
  refine (W15_v64 m ρ c).trans ((W13_arr m ρ c 2).trans ((Region5.final (V12 m ρ) c).trans ?_))
  have eb : V12 m ρ c main_v63 = Cert.ReferenceIdeal.ReadP.val_main_v97 (F := Ideal) (x10 m c) := by
    refine (W12_v63 m ρ c).trans ?_
    rw [W11_arg10]; exact row256 _
  unfold Region5.G
  rw [show V12 m ρ c main_v62 = _ from A2_val m ρ c, eb]
  rfl

/-- z again, where the program returns it. -/
theorem z_out : W15 m ρ c (Proc.devRef .tc main_v47) = Cert.ReferenceIdeal.ReadP.val_main_v51 (F := Ideal) (x0 m c) (x1 m c) (x3 m c) (x4 m c) (x5 m c) (x6 m c) :=
  (W15_v47 m ρ c).trans (z_val m ρ c)

/-- pred = z · W5 + b5: the seventh region's result. -/
theorem pred_val : W15 m ρ c (Proc.devRef .tc main_v66) = Cert.ReferenceIdeal.ReadP.val_main_v103 (F := Ideal) (x0 m c) (x1 m c) (x3 m c) (x4 m c) (x5 m c) (x6 m c) (x11 m c) (x12 m c) := by
  refine (W15_arr m ρ c 3).trans ((Region6.final (V14 m ρ) c).trans ?_)
  have ez : V14 m ρ c main_v47 = Cert.ReferenceIdeal.ReadP.val_main_v51 (F := Ideal) (x0 m c) (x1 m c) (x3 m c) (x4 m c) (x5 m c) (x6 m c) := (W14_v47 m ρ c).trans (z_val m ρ c)
  have eb : V14 m ρ c main_v65 = Cert.ReferenceIdeal.ReadP.val_main_v101 (F := Ideal) (x12 m c) := by
    refine (W14_v65 m ρ c).trans ?_
    rw [W13_arg12]; exact row3 _
  unfold Region6.G
  rw [ez, show V14 m ρ c main_arg11 = x11 m c from W14_arg11 m ρ c, eb]
  rfl

/-! ## The run -/

/-- Every weakly fair execution of the kernel's program ends with its three results at the reference's terms of the
    argument arrays, the arguments unchanged. -/
theorem run : θ_run defs (onTc (τ := τ) (main (F := Ideal))) ⟨m, fun _ => 0, ρ⟩ (fun r => ∀ c : Dev nD,
      r.2.mem ((c.tc : Thread nD τ).loc main_v64) = Cert.ReferenceIdeal.ReadP.val_main_v99 (F := Ideal) (x0 m c) (x1 m c) (x3 m c) (x4 m c) (x5 m c) (x6 m c) (x7 m c) (x8 m c) (x9 m c) (x10 m c)
      ∧ r.2.mem ((c.tc : Thread nD τ).loc main_v47) = Cert.ReferenceIdeal.ReadP.val_main_v51 (F := Ideal) (x0 m c) (x1 m c) (x3 m c) (x4 m c) (x5 m c) (x6 m c)
      ∧ r.2.mem ((c.tc : Thread nD τ).loc main_v66) = Cert.ReferenceIdeal.ReadP.val_main_v103 (F := Ideal) (x0 m c) (x1 m c) (x3 m c) (x4 m c) (x5 m c) (x6 m c) (x11 m c) (x12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (xr_val m ρ c), (h c).2.1.trans (z_out m ρ c), (h c).2.2.1.trans (pred_val m ρ c), (h c).2.2.2⟩)
    (run_results m ρ)

end Cert.KernelIdeal.Assemble

end
-- ==== Proof.lean ====
/-
  A two-layer graph autoencoder with a condition head, its dense and bias stages run as seven pallas_calls over
  blocks of 5000 of the 50000 node rows, against the same network written with whole-array jnp operations.

  Both programs compute, from the node features x, the edge list and the weights,
      H = max(agg(x · W1) + b1, 0),  z = H · W2 + b2,  hd = max(z · W3 + b3, 0),
      x' = agg(hd · W4) + b4,  pred = z · W5 + b5,
  and return (x', z, pred); agg is the symmetric-normalised neighbourhood sum of a graph convolution (self loops
  added; gather along the edges, scale, scatter-add). The kernel rounds the operands of its products to bf16 and
  tiles the rows; over the extended reals a change of format is the identity and a product computed block of rows by
  block of rows is the product of the whole arrays, so the two programs are the same function of the arguments,
  stage by stage (Proof/Assemble.lean; the blocks of each pallas_call in Proof/Region0 … Region6, the host operations
  between them in Proof/HostVals, the buffers they leave untouched in Proof/Walk). No law that fails at the infinities
  is used: the equality of the results does not need the inputs to be finite.

  The three frames are the programs' runs with the results forgotten; the idealization rewrote nothing, so
  `preserves` is trivial.
-/
import proofs.«132482_j52905407152187_1_alg».proof.Defs
import proofs.«132482_j52905407152187_1_alg».proof.Proof.Gen.Kernel
import proofs.«132482_j52905407152187_1_alg».proof.Proof.Gen.Kernel.Frame
import proofs.«132482_j52905407152187_1_alg».proof.Proof.Gen.KernelIdeal
import proofs.«132482_j52905407152187_1_alg».proof.Proof.Gen.KernelIdeal.Frame
import proofs.«132482_j52905407152187_1_alg».proof.Proof.Gen.ReferenceIdeal
import proofs.«132482_j52905407152187_1_alg».proof.Proof.Gen.Pre_finite_inputs
import proofs.«132482_j52905407152187_1_alg».proof.Proof.RefRunP
import proofs.«132482_j52905407152187_1_alg».proof.Proof.RefReadP
import proofs.«132482_j52905407152187_1_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its results forgotten. -/
theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- From memories agreeing on the arguments both programs end with each result at the same term of the arguments:
    the kernel's by the stage-by-stage reading of its run, the reference's by its run read back. -/
theorem algebraic : Cert.algebraic_KernelIdeal_ReferenceIdeal := by
  intro m ρ m' ρ' _ hagree
  refine ⟨_, _, _, Cert.KernelIdeal.Assemble.run m ρ, ?_⟩
  refine (θ_run Cert.ReferenceIdeal.defs _ _).mono (fun _ h c => ?_) (Cert.ReferenceIdeal.ValueP.run (F := Ideal) m' ρ')
  obtain ⟨h0, h1, h2, hargs⟩ := h c
  obtain ⟨a0, a1, a2, a3, a4, a5, a6, a7, a8, a9, a10, a11, a12⟩ := hagree c
  refine ⟨h0.trans ?_, h1.trans ?_, h2.trans ?_, hargs⟩
  · rw [Cert.ReferenceIdeal.ReadP.val_main_v99_eq, a0, a1, a3, a4, a5, a6, a7, a8, a9, a10]
  · rw [Cert.ReferenceIdeal.ReadP.val_main_v51_eq, a0, a1, a3, a4, a5, a6]
  · rw [Cert.ReferenceIdeal.ReadP.val_main_v103_eq, a0, a1, a3, a4, a5, a6, a11, a12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
